-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S128 .f32) (main_arg6 : FVec F S128x1 .f32) (main_arg7 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg6
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x1 .f32) (main_arg7 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x128 : Shape := ⟨2, ![5000, 128]⟩
abbrev S5000x1 : Shape := ⟨2, ![5000, 1]⟩
abbrev S1700000x128 : Shape := ⟨2, ![1700000, 128]⟩
abbrev S1x128 : Shape := ⟨2, ![1, 128]⟩

abbrev nBuf : Space → Nat
  | .hbm => 71
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000x128, .f32⟩
  | .hbm, ⟨40, _⟩ => ⟨S_, .f32⟩
  | .hbm, ⟨41, _⟩ => ⟨S100000x128, .f32⟩
  | .hbm, ⟨42, _⟩ => ⟨S1700000x1, .i32⟩
  | .hbm, ⟨43, _⟩ => ⟨S100000x128, .f32⟩
  | .hbm, ⟨44, _⟩ => ⟨S100000x128, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x128, .f32⟩
  | .hbm, ⟨54, _⟩ => ⟨S_, .f32⟩
  | .hbm, ⟨55, _⟩ => ⟨S100000x128, .f32⟩
  | .hbm, ⟨56, _⟩ => ⟨S1700000x1, .i32⟩
  | .hbm, ⟨57, _⟩ => ⟨S100000x128, .f32⟩
  | .hbm, ⟨58, _⟩ => ⟨S_, .f32⟩
  | .hbm, ⟨59, _⟩ => ⟨S128x128, .f32⟩
  | .hbm, ⟨60, _⟩ => ⟨S_, .i32⟩
  | .hbm, ⟨61, _⟩ => ⟨S1, .i32⟩
  | .hbm, ⟨62, _⟩ => ⟨S128x128, .f32⟩
  | .hbm, ⟨63, _⟩ => ⟨S_, .f32⟩
  | .hbm, ⟨64, _⟩ => ⟨S128, .f32⟩
  | .hbm, ⟨65, _⟩ => ⟨S_, .i32⟩
  | .hbm, ⟨66, _⟩ => ⟨S1, .i32⟩
  | .hbm, ⟨67, _⟩ => ⟨S128, .f32⟩
  | .hbm, ⟨68, _⟩ => ⟨S100000x128, .f32⟩
  | .hbm, ⟨69, _⟩ => ⟨S100000x1, .f32⟩
  | .hbm, ⟨70, _⟩ => ⟨S100000, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S128, .f32⟩
  | .local _ .vmem, ⟨20, _⟩ => ⟨S128x128, .f32⟩
  | .local _ .vmem, ⟨21, _⟩ => ⟨S128, .f32⟩
  | .local _ .vmem, ⟨22, _⟩ => ⟨S5000x128, .f32⟩
  | .local _ .vmem, ⟨23, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_8 : Ref sig .tc := ⟨.hbm, 58, rfl⟩
abbrev main_v38 : Ref sig .tc := ⟨.hbm, 59, rfl⟩
abbrev main_c_9 : Ref sig .tc := ⟨.hbm, 60, rfl⟩
abbrev main_v39 : Ref sig .tc := ⟨.hbm, 61, rfl⟩
abbrev main_v40 : Ref sig .tc := ⟨.hbm, 62, rfl⟩
abbrev main_cst_10 : Ref sig .tc := ⟨.hbm, 63, rfl⟩
abbrev main_v41 : Ref sig .tc := ⟨.hbm, 64, rfl⟩
abbrev main_c_11 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S128x128 : S_.BroadcastsInDim S128x128 (![] : Fin 0 → Fin S128x128.rank)
  bcast_S_S1 : S_.BroadcastsInDim S1 (![] : Fin 0 → Fin S1.rank)
  bcast_S_S128 : S_.BroadcastsInDim S128 (![] : Fin 0 → Fin S128.rank)
  shapeCasts_S128x128_S128x128 : S128x128.ShapeCasts S128x128
  shapeCasts_S128_S128 : S128.ShapeCasts S128
  slices_S100000x128_S100000x1_0_0 : S100000x128.Slices ![0, 0] S100000x1
  shapeCasts_S100000x1_S100000 : S100000x1.ShapeCasts S100000
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S128x128_S1_S128x1_01_n_1_0_wf : ScatterDims.WF S128x128 S1 S128x1 [0, 1] [] [1] 0
  scatter_S128_S1_S1_0_n_0_0_wf : ScatterDims.WF S128 S1 S1 [0] [] [0] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S128x128_S1_S128x1_01_n_1_0 : ScatterDims S128x128 S1 S128x1 where
  updateWindowDims := [0, 1]
  insertedWindowDims := []
  scatterDimsToOperandDims := [1]
  indexVectorDim := 0
  wf := scatter_S128x128_S1_S128x1_01_n_1_0_wf
def scatter_S128_S1_S1_0_n_0_0 : ScatterDims S128 S1 S1 where
  updateWindowDims := [0]
  insertedWindowDims := []
  scatterDimsToOperandDims := [0]
  indexVectorDim := 0
  wf := scatter_S128_S1_S1_0_n_0_0_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v37) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v44) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩
abbrev S1x1 : Shape := ⟨2, ![1, 1]⟩

abbrev nBuf : Space → Nat
  | .hbm => 135
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x1, .f32⟩
  | 7 => ⟨S1, .f32⟩
  | 8 => ⟨S1x1600000, .i32⟩
  | 9 => ⟨S1600000, .i32⟩
  | 10 => ⟨S1x1600000, .i32⟩
  | 11 => ⟨S1600000, .i32⟩
  | 12 => ⟨S100000, .i32⟩
  | 13 => ⟨S1700000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S100000x128, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x128, .f32⟩
  | 58 => ⟨S1700000x1, .f32⟩
  | 59 => ⟨S1700000x128, .f32⟩
  | 60 => ⟨S1700000x128, .f32⟩
  | 61 => ⟨S_, .f32⟩
  | 62 => ⟨S100000x128, .f32⟩
  | 63 => ⟨S1700000x1, .i32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S100000, .i32⟩
  | 72 => ⟨S1700000, .i32⟩
  | 73 => ⟨S1700000, .i32⟩
  | 74 => ⟨S_, .f32⟩
  | 75 => ⟨S1700000, .f32⟩
  | 76 => ⟨S_, .f32⟩
  | 77 => ⟨S100000, .f32⟩
  | 78 => ⟨S1700000x1, .i32⟩
  | 79 => ⟨S100000, .f32⟩
  | 80 => ⟨S_, .f32⟩
  | 81 => ⟨S100000, .f32⟩
  | 82 => ⟨S100000, .i1⟩
  | 83 => ⟨S100000, .f32⟩
  | 84 => ⟨S_, .f32⟩
  | 85 => ⟨S_, .f32⟩
  | 86 => ⟨S100000, .f32⟩
  | 87 => ⟨S100000, .f32⟩
  | 88 => ⟨S_, .i32⟩
  | 89 => ⟨S1700000, .i32⟩
  | 90 => ⟨S1700000, .i1⟩
  | 91 => ⟨S_, .i32⟩
  | 92 => ⟨S1700000, .i32⟩
  | 93 => ⟨S1700000, .i32⟩
  | 94 => ⟨S1700000, .i32⟩
  | 95 => ⟨S1700000x1, .i32⟩
  | 96 => ⟨S1700000, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S1700000, .f32⟩
  | 106 => ⟨S1700000, .f32⟩
  | 107 => ⟨S100000x128, .f32⟩
  | 108 => ⟨S_, .i32⟩
  | 109 => ⟨S1700000, .i32⟩
  | 110 => ⟨S1700000, .i1⟩
  | 111 => ⟨S_, .i32⟩
  | 112 => ⟨S1700000, .i32⟩
  | 113 => ⟨S1700000, .i32⟩
  | 114 => ⟨S1700000, .i32⟩
  | 115 => ⟨S1700000x1, .i32⟩
  | 116 => ⟨S1700000x128, .f32⟩
  | 117 => ⟨S1700000x1, .f32⟩
  | 118 => ⟨S1700000x128, .f32⟩
  | 119 => ⟨S1700000x128, .f32⟩
  | 120 => ⟨S_, .f32⟩
  | 121 => ⟨S100000x128, .f32⟩
  | 122 => ⟨S1700000x1, .i32⟩
  | 123 => ⟨S100000x128, .f32⟩
  | 124 => ⟨S1x128, .f32⟩
  | 125 => ⟨S100000x128, .f32⟩
  | 126 => ⟨S100000x128, .f32⟩
  | 127 => ⟨S_, .f32⟩
  | _ => ⟨S100000x128, .f32⟩

abbrev hbmTy0_1 (i : Nat) : BufTy := match i % 128 with
  | 0 => ⟨S100000x128, .f32⟩
  | 1 => ⟨S100000x128, .f32⟩
  | 2 => ⟨S100000x1, .f32⟩
  | 3 => ⟨S1x1, .f32⟩
  | 4 => ⟨S100000x1, .f32⟩
  | 5 => ⟨S100000x1, .f32⟩
  | 6 => ⟨S100000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_9 : Ref sig .tc := ⟨.hbm, 74, rfl⟩
abbrev main_v51 : Ref sig .tc := ⟨.hbm, 75, rfl⟩
abbrev main_cst_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_12 : Ref sig .tc := ⟨.hbm, 84, rfl⟩
abbrev main_call2_v0 : Ref sig .tc := ⟨.hbm, 85, rfl⟩
abbrev main_call2_v1 : Ref sig .tc := ⟨.hbm, 86, rfl⟩
abbrev main_v58 : Ref sig .tc := ⟨.hbm, 87, rfl⟩
abbrev main_c_13 : Ref sig .tc := ⟨.hbm, 88, rfl⟩
abbrev main_v59 : Ref sig .tc := ⟨.hbm, 89, rfl⟩
abbrev main_v60 : Ref sig .tc := ⟨.hbm, 90, rfl⟩
abbrev main_c_14 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c_15 : Ref sig .tc := ⟨.hbm, 97, rfl⟩
abbrev main_v66 : Ref sig .tc := ⟨.hbm, 98, rfl⟩
abbrev main_v67 : Ref sig .tc := ⟨.hbm, 99, rfl⟩
abbrev main_c_16 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_17 : Ref sig .tc := ⟨.hbm, 108, rfl⟩
abbrev main_v75 : Ref sig .tc := ⟨.hbm, 109, rfl⟩
abbrev main_v76 : Ref sig .tc := ⟨.hbm, 110, rfl⟩
abbrev main_c_18 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_19 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_call3_cst : Ref sig .tc := ⟨.hbm, 127, rfl⟩
abbrev main_call3_v0 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x1_S100000x1_1_0_0_1_n_n_wf : DotDims.WF S100000x128 S128x1 S100000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.KRun.lean ====
/-
  The idealized kernel program's run with its result NAMED: every weakly fair execution of @main terminates, nothing
  faulting, with the result buffer holding what the last host stretch leaves in it — the contents `W9` at the last
  segment boundary, a fold through @main's nine segments (six stretches of host operations, three kernel regions) from
  the launch memory — and the argument arrays as launched.  The segments, their chaining and the thread state are those
  of the frame; only the reading of the final state differs: the result buffer is one of the unscoped buffers the last
  thread state holds at `W9`.
-/
import proofs.«151056_j63668595196286_2_alg».proof.Proof.Gen.KernelIdeal.Frame

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, the result buffer read at the last boundary's contents. -/
theorem run_named : θ_run defs (onTc (τ := τ) (main (F := F))) ⟨m, fun _ => 0, ρ⟩ (fun r => ∀ c : Dev nD,
      r.2.mem ((c.tc : Thread nD τ).loc main_v46) = W9 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v46 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.KernelIdeal.Hand

end
-- ==== Proof.LibMatmulSum.lean ====
/-
  A plain matrix product read at an index, at the ideal values.

  For dimension numbers that contract the left operand's axis 1 with the right operand's axis 0, with no batch axis — an
  [M, K] by [K, N] product into [M, N] — the operand indices at result index `j` and contraction index `q` are
  (j 0, q) and (q, j 1). So a `tpu.matmul` into a zero accumulator and the host's `dot_general` are, at every result
  index, the same sum over `k : Fin K` of `l (j 0, k) * r (k, j 1)` on the extended reals: no rounding, no order, and the
  change of float format on the way in is the identity.
-/
import Idealize.ShloMosaic.PureOps.Ideal.Laws
import Idealize.ShloMosaic.Lib.ValueIdx

noncomputable section

namespace Idealize.ShloMosaic.MatmulSum

open Idealize.ShloMosaic Idealize.ShloMosaic.ValueIdx

variable {M K N : Nat} (d : DotDims ⟨2, ![M, K]⟩ ⟨2, ![K, N]⟩ ⟨2, ![M, N]⟩)

/-- The one contraction axis has extent `K`. -/
theorem contr_rank (hlc : d.lhsContracting = [1]) : d.contr.rank = 1 := by
  rw [d.rank_contr, hlc]; rfl

theorem contr_size (hlc : d.lhsContracting = [1]) : d.contr.size ⟨0, by rw [contr_rank d hlc]; exact Nat.one_pos⟩ = K := by
  rw [d.size_contr 0 (by rw [hlc]; exact Nat.one_pos)]
  simp only [hlc, List.getElem_cons_zero]
  rfl

/-- Row coordinate of the left operand's index: the result's row. -/
theorem lhsIdx_row (hln : d.lhsNonContracting = [0]) (hlb : d.lhsBatch = [])
    (j : (⟨2, ![M, N]⟩ : Shape).Idx) (q : d.contr.Idx) : (d.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p r : Nat) (hp : p < 2) (hr : r < 2), p = r →
      (j ⟨p, hp⟩).val = (j ⟨r, hr⟩).val := fun p r hp hr h => by subst h; rfl
  exact key _ _ _ _ (by simp [hlb, hln])

/-- Column coordinate of the right operand's index: the result's column. -/
theorem rhsIdx_col (hln : d.lhsNonContracting = [0]) (hrn : d.rhsNonContracting = [1]) (hlb : d.lhsBatch = [])
    (hrb : d.rhsBatch = []) (j : (⟨2, ![M, N]⟩ : Shape).Idx) (q : d.contr.Idx) : (d.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p r : Nat) (hp : p < 2) (hr : r < 2), p = r →
      (j ⟨p, hp⟩).val = (j ⟨r, hr⟩).val := fun p r hp hr h => by subst h; rfl
  exact key _ _ _ _ (by simp [hlb, hln, hrn])

/-- The contraction sum of a plain product, re-indexed over `Fin K`. -/
theorem sum_contr (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = ∑ k : Fin K, l (ix2 (j 0) k) * r (ix2 k (j 1)) := by
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx j ((contrEquiv1 d K (contr_rank d hlc) (contr_size d hlc)).symm k) = ix2 (j 0) k :=
    funext fun a => Fin.ext (by
      match a with
      | ⟨0, _⟩ => exact lhsIdx_row d hln hlb _ _
      | ⟨1, _⟩ => exact (d.lhsIdx_val_of_single hlc _ _).trans hk)
  have er : d.rhsIdx j ((contrEquiv1 d K (contr_rank d hlc) (contr_size d hlc)).symm k) = ix2 k (j 1) :=
    funext fun a => Fin.ext (by
      match a with
      | ⟨0, _⟩ => exact (d.rhsIdx_val_of_single hrc _ _).trans hk
      | ⟨1, _⟩ => exact rhsIdx_col d hln hrn hlb hrb _ _)
  exact congrArg₂ (fun a b => l a * r b) el er

/-- A `tpu.matmul` of a plain product into the zero splat, at an index: the sum of products over the shared axis. -/
theorem matmul_zero_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (j : (⟨2, ![M, N]⟩ : Shape).Idx) :
    FloatOps.matmul d prec l r (constant ⟨2, ![M, N]⟩ .f32 0x00000000#32) j = ∑ k : Fin K, l (ix2 (j 0) k) * r (ix2 k (j 1)) :=
  (Ideal.matmul_constant_zero_apply d prec l r j).trans (sum_contr d hlc hrc hln hrn hlb hrb l r j)

/-- The host's `dot_general` of a plain product, at an index: the same sum. -/
theorem dotGeneral_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) :=
  (Ideal.dotGeneral_apply d prec sched l r j).trans (sum_contr d hlc hrc hln hrn hlb hrb l r j)

end Idealize.ShloMosaic.MatmulSum

end
-- ==== Proof.LibProduct.lean ====
/-
  The product of a matrix of extended reals with another, as one function of its two factors.

  Entry (i, j) of the product of an [M, K] array with a [K, N] array is the sum over k of l (i, k) * r (k, j).
  On the extended reals a matrix unit's product into a zero accumulator and the host's dot_general (contraction of
  the left factor's columns with the right factor's rows, no batch axis) are both exactly this function.

  A block of consecutive rows of a product is the product of the same rows of the left factor with the whole right
  factor: each entry's sum runs over the whole shared axis and mentions one row of the left factor only. That is all
  that a product computed a band of rows at a time needs.
-/
import proofs.«151056_j63668595196286_2_alg».proof.Proof.LibMatmulSum

noncomputable section

namespace Cert.Product

open Idealize.ShloMosaic Idealize.ShloMosaic.ValueIdx

/-- The product of an [M, K] array and a [K, N] array: entry (i, j) is the sum over k of l (i, k) * r (k, j). -/
def mm {M K N : Nat} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem mm_apply {M K N : Nat} (l : (⟨2, ![M, K]⟩ : Shape).Idx → EReal) (r : (⟨2, ![K, N]⟩ : Shape).Idx → EReal)
    (j : (⟨2, ![M, N]⟩ : Shape).Idx) : mm l r j = ∑ k : Fin K, l (ix2 (j 0) k) * r (ix2 k (j 1)) := rfl

variable {M K N : Nat} (d : DotDims ⟨2, ![M, K]⟩ ⟨2, ![K, N]⟩ ⟨2, ![M, N]⟩)

/-- The host's dot_general of a plain product is the product. -/
theorem dotGeneral_eq_mm (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ .f32) (r : FVec Ideal ⟨2, ![K, N]⟩ .f32) :
    Host.dotGeneral (F := Ideal) d prec l r = mm l r :=
  funext fun j => MatmulSum.dotGeneral_apply d hlc hrc hln hrn hlb hrb prec .single l r j

/-- A matrix unit's product into the zero accumulator is the product. -/
theorem matmul_zero_eq_mm (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ .f32) (r : FVec Ideal ⟨2, ![K, N]⟩ .f32) :
    matmul (F := Ideal) d prec l r (constant ⟨2, ![M, N]⟩ .f32 0x00000000#32) = mm l r :=
  funext fun j => MatmulSum.matmul_zero_apply d hlc hrc hln hrn hlb hrb prec l r j

/-- Rows `o, o + 1, …` of a product: if `lb` holds the rows of `l` from row `o` on (`hl`), then the product of `lb`
    with `r` at (p, q) is the product of `l` with `r` at (o + p, q). -/
theorem mm_rows {M' : Nat} (l : (⟨2, ![M, K]⟩ : Shape).Idx → EReal) (lb : (⟨2, ![M', K]⟩ : Shape).Idx → EReal)
    (r : (⟨2, ![K, N]⟩ : Shape).Idx → EReal) (p : Fin M') (i : Fin M) (q : Fin N)
    (hl : ∀ k : Fin K, lb (ix2 p k) = l (ix2 i k)) :
    mm lb r (ix2 p q) = mm l r (ix2 i q) :=
  Finset.sum_congr rfl fun k _ => by rw [show (ix2 p q : (⟨2, ![M', N]⟩ : Shape).Idx) 0 = p from rfl,
    show (ix2 p q : (⟨2, ![M', N]⟩ : Shape).Idx) 1 = q from rfl, show (ix2 i q : (⟨2, ![M, N]⟩ : Shape).Idx) 0 = i from rfl,
    show (ix2 i q : (⟨2, ![M, N]⟩ : Shape).Idx) 1 = q from rfl, hl k]

end Cert.Product

end
-- ==== Proof.LibRowScatter.lean ====
/-
  A gather of rows and a scatter-add of rows, read at an index, at the ideal values.

  Let `x` be an `N × C` array and `idx` a column of `E` integers (an `E × 1` array of words read as signed integers).

  The ROW GATHER of `x` at `idx` is the `E × C` array whose row `e` is row `idx e` of `x`, the integer first
  clamped into `[0, N − 1]`: entry `(e, c)` is `x (rowOf idx e, c)`, where the row `rowOf idx e` depends on the index
  column and on `e` only — not on the column `c`, nor on `x`.

  The ROW SCATTER-ADD of an `E × C` array `upd` into `x` along `idx` adds row `e` of `upd` to row `idx e` of `x`,
  for every `e`; a row whose integer is outside `[0, N − 1]` is dropped, not clamped. The update entry `(e, c')`
  lands on the entry `(n, c)` exactly when `idx e = n` as integers and `c' = c`. At the ideal values the colliding
  updates are summed exactly, so entry `(n, c)` of the result is `x (n, c)` plus the sum of `upd (e, c)` over the
  `e` with `idx e = n`.

  Scattering the constant `1` into zeros counts the updates that land on each entry: the result is a natural number.
-/
import Idealize.ShloMosaic.PureOps.Ideal.Laws
import Idealize.ShloMosaic.Lib.ValueIdx

noncomputable section

namespace Cert.LibRowScatter

open Idealize.ShloMosaic Idealize.ShloMosaic.ValueIdx

variable {N E C w : Nat}

/-! ### The row scatter -/

section Scatter

variable (d : ScatterDims ⟨2, ![N, C]⟩ ⟨2, ![E, 1]⟩ ⟨2, ![E, C]⟩)

/-- On the row axis the window starts at the update row's integer, read signed. -/
theorem start_row (huw : d.updateWindowDims = [1]) (hiw : d.insertedWindowDims = [0])
    (hsd : d.scatterDimsToOperandDims = [0]) (hiv : d.indexVectorDim = 1) (idx : IVec ⟨2, ![E, 1]⟩ w)
    (j : (⟨2, ![E, C]⟩ : Shape).Idx) : d.start j idx 0 = (idx (ix2 (j 0) (0 : Fin 1))).toInt := by
  obtain ⟨uw, iw, sd, iv, wf⟩ := d
  dsimp only at huw hiw hsd hiv
  subst huw hiw hsd hiv
  unfold ScatterDims.start
  rw [dif_pos (List.mem_singleton.mpr rfl)]
  congr 2
  funext b
  refine Fin.ext ?_
  match b with
  | ⟨0, _⟩ => rfl
  | ⟨1, _⟩ => rfl

/-- On the column axis the window starts at `0`: the scatter index names the row axis only. -/
theorem start_col (huw : d.updateWindowDims = [1]) (hiw : d.insertedWindowDims = [0])
    (hsd : d.scatterDimsToOperandDims = [0]) (hiv : d.indexVectorDim = 1) (idx : IVec ⟨2, ![E, 1]⟩ w)
    (j : (⟨2, ![E, C]⟩ : Shape).Idx) : d.start j idx 1 = 0 := by
  obtain ⟨uw, iw, sd, iv, wf⟩ := d
  dsimp only at huw hiw hsd hiv
  subst huw hiw hsd hiv
  unfold ScatterDims.start
  rw [dif_neg (show (1 : Fin 2) ∉ ([0] : List (Fin 2)) by decide)]

/-- The row axis is inserted: no window coordinate on it. -/
theorem window_row (huw : d.updateWindowDims = [1]) (hiw : d.insertedWindowDims = [0])
    (hsd : d.scatterDimsToOperandDims = [0]) (hiv : d.indexVectorDim = 1)
    (j : (⟨2, ![E, C]⟩ : Shape).Idx) : d.window j 0 = 0 := by
  obtain ⟨uw, iw, sd, iv, wf⟩ := d
  dsimp only at huw hiw hsd hiv
  subst huw hiw hsd hiv
  unfold ScatterDims.window
  exact dif_neg (show (0 : Fin 2) ∉ ([1] : List (Fin 2)) by decide)

/-- On the column axis the window coordinate is the update's column. -/
theorem window_col (huw : d.updateWindowDims = [1]) (hiw : d.insertedWindowDims = [0])
    (hsd : d.scatterDimsToOperandDims = [0]) (hiv : d.indexVectorDim = 1)
    (j : (⟨2, ![E, C]⟩ : Shape).Idx) : d.window j 1 = (j 1).val := by
  obtain ⟨uw, iw, sd, iv, wf⟩ := d
  dsimp only at huw hiw hsd hiv
  subst huw hiw hsd hiv
  unfold ScatterDims.window
  exact (dif_pos (show (1 : Fin 2) ∈ ([1] : List (Fin 2)) by decide)).trans rfl

/-- Update entry `j` lands on entry `i` exactly when its row's integer is `i`'s row and the columns agree. -/
theorem rowScatter_resultIdx?_eq_some_iff (huw : d.updateWindowDims = [1]) (hiw : d.insertedWindowDims = [0])
    (hsd : d.scatterDimsToOperandDims = [0]) (hiv : d.indexVectorDim = 1) (idx : IVec ⟨2, ![E, 1]⟩ w)
    (j : (⟨2, ![E, C]⟩ : Shape).Idx) (i : (⟨2, ![N, C]⟩ : Shape).Idx) :
    d.resultIdx? j idx = some i ↔
      (idx (ix2 (j 0) (0 : Fin 1))).toInt = ((i 0).val : Int) ∧ (j 1).val = (i 1).val := by
  have hs0 := start_row d huw hiw hsd hiv idx j
  have hs1 := start_col d huw hiw hsd hiv idx j
  have hw0 := window_row d huw hiw hsd hiv j
  have hw1 := window_col d huw hiw hsd hiv j
  have hi0 := idx2_lt0 i
  have hi1 := idx2_lt1 i
  have hj1 := idx2_lt1 j
  unfold ScatterDims.resultIdx?
  constructor
  · intro h
    split at h
    · rename_i hr
      have hi := Option.some.inj h
      have e0 := congrArg (fun f => (f 0).val) hi
      have e1 := congrArg (fun f => (f 1).val) hi
      have r0 := hr 0
      simp only [hs0, hs1, hw0, hw1] at e0 e1 r0
      omega
    · exact absurd h (by simp)
  · rintro ⟨h0, h1⟩
    have hr : ∀ a, 0 ≤ d.start j idx a + d.window j a ∧
        d.start j idx a + d.window j a < (⟨2, ![N, C]⟩ : Shape).size a := by
      intro a
      match a with
      | ⟨0, _⟩ =>
        show 0 ≤ d.start j idx 0 + d.window j 0 ∧ d.start j idx 0 + d.window j 0 < ((N : Nat) : Int)
        rw [hs0, hw0]; omega
      | ⟨1, _⟩ =>
        show 0 ≤ d.start j idx 1 + d.window j 1 ∧ d.start j idx 1 + d.window j 1 < ((C : Nat) : Int)
        rw [hs1, hw1]; omega
    rw [dif_pos hr]
    congr 1
    funext a
    refine Fin.ext ?_
    match a with
    | ⟨0, _⟩ =>
      show (d.start j idx 0 + d.window j 0).toNat = (i 0).val
      rw [hs0, hw0]; omega
    | ⟨1, _⟩ =>
      show (d.start j idx 1 + d.window j 1).toNat = (i 1).val
      rw [hs1, hw1]; omega

/-- THE ROW SCATTER-ADD READ AT `(n, c)`: the operand's entry plus the sum, over the update rows `e` whose integer is
    `n`, of the update's entry `(e, c)`. -/
theorem hostScatterAdd_rows_apply (huw : d.updateWindowDims = [1]) (hiw : d.insertedWindowDims = [0])
    (hsd : d.scatterDimsToOperandDims = [0]) (hiv : d.indexVectorDim = 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd d x idx upd (ix2 n c) = x (ix2 n c) +
      ∑ e ∈ Finset.univ.filter (fun e : Fin E => (idx (ix2 e (0 : Fin 1))).toInt = (n.val : Int)), upd (ix2 e c) := by
  unfold Ideal.hostScatterAdd
  congr 1
  -- both sums as sums of indicator terms; the left one split into rows and columns
  rw [Finset.sum_filter, Finset.sum_filter, sum_idx2]
  refine Finset.sum_congr rfl fun e _ => ?_
  simp only [rowScatter_resultIdx?_eq_some_iff d huw hiw hsd hiv]
  -- in row `e` only the column `c` can contribute
  by_cases hA : (idx (ix2 e (0 : Fin 1))).toInt = (n.val : Int)
  · rw [if_pos hA, Finset.sum_eq_single c]
    · exact if_pos ⟨hA, rfl⟩
    · intro b _ hb
      exact if_neg fun h => hb (Fin.ext h.2)
    · intro h
      exact absurd (Finset.mem_univ c) h
  · rw [if_neg hA]
    exact Finset.sum_eq_zero fun b _ => if_neg fun h => hA h.1

end Scatter

/-! ### Counting the updates -/

/-- Scattering ones into zeros, with an `add` body, gives at every entry a natural number: how many updates land
    there. For any shapes and any dimension numbers. -/
theorem hostScatterAdd_zero_one_nat {s si u : Shape} (d : ScatterDims s si u) {w : Nat} (idx : IVec si w) (i : s.Idx) :
    ∃ k : ℕ, Ideal.hostScatterAdd d (fun _ => (0 : EReal)) idx (fun _ => (1 : EReal)) i = (k : EReal) := by
  refine ⟨(Finset.univ.filter (fun j => d.resultIdx? j idx = some i)).card, ?_⟩
  unfold Ideal.hostScatterAdd
  rw [zero_add, Finset.sum_const, nsmul_one]

/-! ### The row gather -/

/-- The row of the operand that row `e` of a gather reads: the integer `idx e`, clamped into `[0, N − 1]`. -/
def rowOf (hN : 0 < N) (idx : IVec ⟨2, ![E, 1]⟩ w) (e : Fin E) : Fin N :=
  ⟨min (idx (ix2 e (0 : Fin 1))).toInt.toNat (N - 1), by omega⟩

theorem rowOf_val (hN : 0 < N) (idx : IVec ⟨2, ![E, 1]⟩ w) (e : Fin E) :
    (rowOf hN idx e).val = min (idx (ix2 e (0 : Fin 1))).toInt.toNat (N - 1) := rfl

section Gather

variable {α : Type} (g : GatherDims ⟨2, ![N, C]⟩ ⟨2, ![E, 1]⟩ ⟨2, ![E, C]⟩)

/-- On the row axis the slice starts at the result row's integer, read signed and clamped into `[0, N − 1]`. -/
theorem gather_start_row (hod : g.offsetDims = [1]) (hcd : g.collapsedSliceDims = [0])
    (hob : g.operandBatchingDims = []) (hsb : g.startIndicesBatchingDims = []) (hsm : g.startIndexMap = [0])
    (hiv : g.indexVectorDim = 1) (hss : g.sliceSizes = ![1, C]) (idx : IVec ⟨2, ![E, 1]⟩ w)
    (j : (⟨2, ![E, C]⟩ : Shape).Idx) :
    g.start j idx 0 = min (idx (ix2 (j 0) (0 : Fin 1))).toInt.toNat (N - 1) := by
  obtain ⟨od, cd, ob, sb, sm, iv, ss, wf⟩ := g
  dsimp only at hod hcd hob hsb hsm hiv hss
  subst hod hcd hob hsb hsm hiv hss
  unfold GatherDims.start
  rw [dif_pos (List.mem_singleton.mpr rfl)]
  refine congrArg₂ min (congrArg (fun v => (idx v).toInt.toNat) ?_) rfl
  funext b
  refine Fin.ext ?_
  match b with
  | ⟨0, _⟩ => rfl
  | ⟨1, _⟩ => rfl

/-- On the column axis the slice starts at `0`: the start index names the row axis only. -/
theorem gather_start_col (hod : g.offsetDims = [1]) (hcd : g.collapsedSliceDims = [0])
    (hob : g.operandBatchingDims = []) (hsb : g.startIndicesBatchingDims = []) (hsm : g.startIndexMap = [0])
    (hiv : g.indexVectorDim = 1) (hss : g.sliceSizes = ![1, C]) (idx : IVec ⟨2, ![E, 1]⟩ w)
    (j : (⟨2, ![E, C]⟩ : Shape).Idx) : g.start j idx 1 = 0 := by
  obtain ⟨od, cd, ob, sb, sm, iv, ss, wf⟩ := g
  dsimp only at hod hcd hob hsb hsm hiv hss
  subst hod hcd hob hsb hsm hiv hss
  unfold GatherDims.start
  exact dif_neg (show (1 : Fin 2) ∉ ([0] : List (Fin 2)) by decide)

/-- The row axis is collapsed: no offset coordinate on it. -/
theorem gather_off_row (hod : g.offsetDims = [1]) (hcd : g.collapsedSliceDims = [0])
    (hob : g.operandBatchingDims = []) (hsb : g.startIndicesBatchingDims = []) (hsm : g.startIndexMap = [0])
    (hiv : g.indexVectorDim = 1) (hss : g.sliceSizes = ![1, C])
    (j : (⟨2, ![E, C]⟩ : Shape).Idx) : g.offCoord j 0 = 0 := by
  obtain ⟨od, cd, ob, sb, sm, iv, ss, wf⟩ := g
  dsimp only at hod hcd hob hsb hsm hiv hss
  subst hod hcd hob hsb hsm hiv hss
  unfold GatherDims.offCoord
  exact dif_neg (show (0 : Fin 2) ∉ ([1] : List (Fin 2)) by decide)

/-- On the column axis the offset coordinate is the result's column. -/
theorem gather_off_col (hod : g.offsetDims = [1]) (hcd : g.collapsedSliceDims = [0])
    (hob : g.operandBatchingDims = []) (hsb : g.startIndicesBatchingDims = []) (hsm : g.startIndexMap = [0])
    (hiv : g.indexVectorDim = 1) (hss : g.sliceSizes = ![1, C])
    (j : (⟨2, ![E, C]⟩ : Shape).Idx) : g.offCoord j 1 = (j 1).val := by
  obtain ⟨od, cd, ob, sb, sm, iv, ss, wf⟩ := g
  dsimp only at hod hcd hob hsb hsm hiv hss
  subst hod hcd hob hsb hsm hiv hss
  unfold GatherDims.offCoord
  exact (dif_pos (show (1 : Fin 2) ∈ ([1] : List (Fin 2)) by decide)).trans rfl

/-- THE ROW GATHER READ AT `(e, c)`: the operand at row `rowOf idx e`, column `c`. -/
theorem gather_rows_apply (hod : g.offsetDims = [1]) (hcd : g.collapsedSliceDims = [0])
    (hob : g.operandBatchingDims = []) (hsb : g.startIndicesBatchingDims = []) (hsm : g.startIndexMap = [0])
    (hiv : g.indexVectorDim = 1) (hss : g.sliceSizes = ![1, C]) (hN : 0 < N)
    (x : (⟨2, ![N, C]⟩ : Shape).Idx → α) (idx : IVec ⟨2, ![E, 1]⟩ w) (e : Fin E) (c : Fin C) :
    Host.gather g x idx (ix2 e c) = x (ix2 (rowOf hN idx e) c) := by
  have hb : ∀ a, g.batchCoord (ix2 e c) a = 0 := fun a =>
    g.batchCoord_eq_zero _ a (by rw [hob]; exact List.not_mem_nil)
  unfold Host.gather
  congr 1
  funext a
  refine Fin.ext ?_
  match a with
  | ⟨0, _⟩ =>
    show g.start (ix2 e c) idx 0 + g.batchCoord (ix2 e c) 0 + g.offCoord (ix2 e c) 0 = _
    rw [hb, gather_start_row g hod hcd hob hsb hsm hiv hss, gather_off_row g hod hcd hob hsb hsm hiv hss]
    rfl
  | ⟨1, _⟩ =>
    show g.start (ix2 e c) idx 1 + g.batchCoord (ix2 e c) 1 + g.offCoord (ix2 e c) 1 = _
    rw [hb, gather_start_col g hod hcd hob hsb hsm hiv hss, gather_off_col g hod hcd hob hsb hsm hiv hss]
    show 0 + 0 + c.val = c.val
    omega

/-- The same, with the clamped row written out. -/
theorem gather_rows_apply_min (hod : g.offsetDims = [1]) (hcd : g.collapsedSliceDims = [0])
    (hob : g.operandBatchingDims = []) (hsb : g.startIndicesBatchingDims = []) (hsm : g.startIndexMap = [0])
    (hiv : g.indexVectorDim = 1) (hss : g.sliceSizes = ![1, C]) (hN : 0 < N)
    (x : (⟨2, ![N, C]⟩ : Shape).Idx → α) (idx : IVec ⟨2, ![E, 1]⟩ w) (e : Fin E) (c : Fin C) :
    Host.gather g x idx (ix2 e c)
      = x (ix2 (⟨min (idx (ix2 e (0 : Fin 1))).toInt.toNat (N - 1), by omega⟩ : Fin N) c) :=
  gather_rows_apply g hod hcd hob hsb hsm hiv hss hN x idx e c

end Gather

end Cert.LibRowScatter

end
-- ==== Proof.Spec.lean ====
/-
  A two-layer graph convolution with a linear head, as functions on the extended reals.

  The graph has 100000 nodes and 1700000 edges (the last 100000 are the self-loops); an edge `e` reads the row
  `src ri e` of a node array (its source, an integer clamped into the node range) and is added onto the node whose
  number is the integer `ci e` (an edge whose integer is no node's number is dropped): `into ci n` is the set of the
  edges added onto node `n`.  `dv n` is the node's weight, the reciprocal square root of its in-degree.

  One way to compute a layer (`reg0`, `reg1`, `reg2` with `aggK` between them) scales every row of the product
  by its node's weight BEFORE the rows are gathered and summed, and scales the sum by the receiving node's weight
  afterwards; the other (`aggR`, `actR`) multiplies each gathered row by the product of the two weights and then
  sums.  `kOut` and `rOut` are the two whole computations; they are equal as soon as the weights are finite and
  not negative (the sum of `a e * D` over a finite set is the sum of the `a e` times `D` for such a `D`, whatever
  the `a e` are).
-/
import proofs.«151056_j63668595196286_2_alg».proof.Proof.LibProduct
import proofs.«151056_j63668595196286_2_alg».proof.Proof.LibRowScatter

noncomputable section

namespace Cert.Spec

open Idealize.ShloMosaic Idealize.ShloMosaic.ValueIdx Cert.Product Cert.LibRowScatter

abbrev SNC : Shape := ⟨2, ![100000, 128]⟩
abbrev SN1 : Shape := ⟨2, ![100000, 1]⟩
abbrev SCC : Shape := ⟨2, ![128, 128]⟩
abbrev SC1 : Shape := ⟨2, ![128, 1]⟩
abbrev SC : Shape := ⟨1, ![128]⟩
abbrev SN : Shape := ⟨1, ![100000]⟩
abbrev S1 : Shape := ⟨1, ![1]⟩
abbrev SE : Shape := ⟨1, ![1700000]⟩
abbrev SE1 : Shape := ⟨2, ![1700000, 1]⟩
abbrev SEC : Shape := ⟨2, ![1700000, 128]⟩

/-- The first layer's transform: the product, each row scaled by its node's weight (`d` holds the weights as a column). -/
def reg0 (x : SNC.Idx → EReal) (w : SCC.Idx → EReal) (d : SN1.Idx → EReal) : SNC.Idx → EReal :=
  fun j => mm x w j * d (ix2 (j 0) (0 : Fin 1))

/-- A layer's activation from the pre-scaled aggregate `a`: scale row `n` by node `n`'s weight, add the bias, clamp at 0. -/
def act (a : SNC.Idx → EReal) (d : SN1.Idx → EReal) (b : SC.Idx → EReal) : SNC.Idx → EReal :=
  fun j => max (a j * d (ix2 (j 0) (0 : Fin 1)) + b (ix1 (j 1))) 0

/-- The second layer's transform of the first layer's aggregate, rows scaled again for the next gather. -/
def reg1 (a : SNC.Idx → EReal) (d : SN1.Idx → EReal) (b : SC.Idx → EReal) (w : SCC.Idx → EReal) : SNC.Idx → EReal :=
  fun j => mm (act a d b) w j * d (ix2 (j 0) (0 : Fin 1))

/-- The head on the second layer's aggregate: the activation times the (padded) output weights plus the (padded) output bias. -/
def reg2 (a : SNC.Idx → EReal) (d : SN1.Idx → EReal) (b : SC.Idx → EReal) (w : SCC.Idx → EReal) (bo : SC.Idx → EReal) :
    SNC.Idx → EReal :=
  fun j => mm (act a d b) w j + bo (ix1 (j 1))

/-- The edges added onto node `n`: those whose integer, read signed, is `n`. -/
def into (ci : IVec SE1 32) (n : Fin 100000) : Finset (Fin 1700000) :=
  Finset.univ.filter fun e => (ci (ix2 e (0 : Fin 1))).toInt = (n.val : Int)

/-- The node whose row edge `e` reads: its integer clamped into the node range. -/
def src (ri : IVec SE1 32) (e : Fin 1700000) : Fin 100000 := rowOf (N := 100000) (by decide) ri e

/-- Gather the rows of `h` along the edges and add each onto its receiving node. -/
def aggK (ci ri : IVec SE1 32) (h : SNC.Idx → EReal) : SNC.Idx → EReal :=
  fun j => ∑ e ∈ into ci (j 0), h (ix2 (src ri e) (j 1))

/-- The same with each gathered row weighted by its two ends' weights (`cwi` reads the receiving end as a row number). -/
def aggR (ci ri cwi : IVec SE1 32) (dv : SN.Idx → EReal) (h : SNC.Idx → EReal) : SNC.Idx → EReal :=
  fun j => ∑ e ∈ into ci (j 0), h (ix2 (src ri e) (j 1)) * (dv (ix1 (src ri e)) * dv (ix1 (src cwi e)))

/-- Bias, then clamp at 0. -/
def actR (s : SNC.Idx → EReal) (b : SC.Idx → EReal) : SNC.Idx → EReal :=
  fun j => max (s j + b (ix1 (j 1))) 0

/-- The whole computation, rows pre-scaled: column 0 of the head. -/
def kOut (x : SNC.Idx → EReal) (W1 : SCC.Idx → EReal) (b1 : SC.Idx → EReal) (W2 : SCC.Idx → EReal) (b2 : SC.Idx → EReal)
    (WoP : SCC.Idx → EReal) (boP : SC.Idx → EReal) (d2 : SN1.Idx → EReal) (ci ri : IVec SE1 32) : SN.Idx → EReal :=
  fun i => reg2 (aggK ci ri (reg1 (aggK ci ri (reg0 x W1 d2)) d2 b1 W2)) d2 b2 WoP boP (ix2 (i 0) (0 : Fin 128))

/-- The whole computation, edges weighted. -/
def rOut (x : SNC.Idx → EReal) (W1 : SCC.Idx → EReal) (b1 : SC.Idx → EReal) (W2 : SCC.Idx → EReal) (b2 : SC.Idx → EReal)
    (Wo : SC1.Idx → EReal) (bo : S1.Idx → EReal) (dv : SN.Idx → EReal) (ci ri cwi : IVec SE1 32) : SN.Idx → EReal :=
  fun i => mm (actR (aggR ci ri cwi dv (mm (actR (aggR ci ri cwi dv (mm x W1)) b1) W2)) b2) Wo (ix2 (i 0) (0 : Fin 1))
    + bo (ix1 (0 : Fin 1))

end Cert.Spec

end
-- ==== Proof.Reg0.lean ====
/-
  The first region's output array.

  The region runs over 20 grid points; point t holds rows 5000 t .. 5000 t + 4999 of the [100000, 128] arrays (the
  [128, 128] weights are whole at every point). At a point the body stores, at (p, q) of its block, the product of
  the block of node features with the weights at (p, q), times the block's weight column at row p. A band of rows of
  a product is the product of the same band of the left factor, so what point t writes back is block t of ONE array:
  the whole product with row n scaled by node n's weight. The 20 blocks tile the array, so the array ends holding it.
-/
import proofs.«151056_j63668595196286_2_alg».proof.Proof.Gen.KernelIdeal.Frame
import proofs.«151056_j63668595196286_2_alg».proof.Proof.Spec
import Idealize.ShloMosaic.Lib.Pipeline.Value
import Idealize.ShloMosaic.Lib.ValueLayout

noncomputable section

namespace Cert.KernelIdeal.Reg0

open Cert.KernelIdeal Cert.KernelIdeal.Gen Idealize.ShloMosaic Idealize.ShloMosaic.TcCoe Idealize.SL.Sem
open Idealize.ShloMosaic.ValueIdx
open Idealize.ShloMosaic.Pipeline (Dat)

/-- The column of weights broadcast along the rows. -/
theorem bcast_col (x2 : Vec Ideal S5000x1 .f32) (h : S5000x1.Broadcasts S5000x128) (p : Fin 5000) (q : Fin 128) :
    broadcastTo S5000x128 x2 h (ix2 p q) = x2 (ix2 p (0 : Fin 1)) := by
  refine broadcastTo_apply x2 _ (ix2 p q) (ix2 p (0 : Fin 1)) fun ax => ?_
  match ax with
  | ⟨0, _⟩ => rfl
  | ⟨1, _⟩ => rfl

/-- The body's stored value at (p, q): the product of the loaded blocks at (p, q), times the weight column at row p
    (rounding to the narrower format is the identity on the extended reals; the accumulator starts at zero). -/
theorem pay (x0 : Vec Ideal S5000x128 .f32) (x1 : Vec Ideal S128x128 .f32) (x2 : Vec Ideal S5000x1 .f32)
    (p : Fin 5000) (q : Fin 128) :
    k0_pay1 x0 x1 x2 (ix2 p q) = Cert.Product.mm x0 x1 (ix2 p q) * x2 (ix2 p (0 : Fin 1)) := by
  unfold k0_pay1
  rw [mulf_apply, shapeCast_self, bcast_col]
  congr 1
  exact congrFun (Cert.Product.matmul_zero_eq_mm dot_S5000x128_S128x128_S5000x128_1_0_0_1_n_n rfl rfl rfl rfl rfl rfl none _ _) (ix2 p q)

/-- The zero offsets, however spelt. -/
theorem hz : (![0, 0] : Fin 2 → Nat) = fun _ => 0 := funext fun a => by fin_cases a <;> rfl

/-- The block index of each window at grid point t: the row-blocked windows are at block (t, 0), the weights at (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The node features' block at point t, row p, is row 5000 t + p of the array. -/
theorem blk0 (V : (c : Dev nD) → (b : Ref sig .tc) → Buf (Elt Ideal) ((c : Thread nD τ).loc b)) (c : Dev nD)
    (t : Fin cfg0.N) (p : Fin 5000) (k : Fin 128) (h : 5000 * t.val + p.val < 100000) :
    iblk0 V c 0 t (ix2 p k) = V c main_arg0 (ix2 (⟨5000 * t.val + p.val, h⟩ : Fin 100000) k) := by
  obtain ⟨e0, e1, -⟩ := idx_facts t
  show V c main_arg0 (((cfg0.win 0).blk t).view.emb (ix2 p k)) = _
  congr 1
  funext a; apply Fin.ext
  match a with
  | ⟨0, _⟩ => show win0_0.index t (0 : Fin 2) * 5000 + 1 * p.val = 5000 * t.val + p.val; omega
  | ⟨1, _⟩ => show win0_0.index t (1 : Fin 2) * 128 + 1 * k.val = k.val; omega

/-- The weights' block is the whole array at every point. -/
theorem blk1 (V : (c : Dev nD) → (b : Ref sig .tc) → Buf (Elt Ideal) ((c : Thread nD τ).loc b)) (c : Dev nD)
    (t : Fin cfg0.N) : iblk0 V c 1 t = V c main_arg2 := by
  obtain ⟨-, -, e0, e1, -⟩ := idx_facts t
  funext j
  show V c main_arg2 (((cfg0.win 1).blk t).view.emb j) = V c main_arg2 j
  congr 1
  funext a; apply Fin.ext
  match a with
  | ⟨0, _⟩ => show win0_1.index t (0 : Fin 2) * 128 + 1 * (j 0).val = (j 0).val; omega
  | ⟨1, _⟩ => show win0_1.index t (1 : Fin 2) * 128 + 1 * (j 1).val = (j 1).val; omega

/-- The weight column's block at point t, row p, is row 5000 t + p of the column. -/
theorem blk2 (V : (c : Dev nD) → (b : Ref sig .tc) → Buf (Elt Ideal) ((c : Thread nD τ).loc b)) (c : Dev nD)
    (t : Fin cfg0.N) (p : Fin 5000) (h : 5000 * t.val + p.val < 100000) :
    iblk0 V c 2 t (ix2 p (0 : Fin 1)) = V c main_v15 (ix2 (⟨5000 * t.val + p.val, h⟩ : Fin 100000) (0 : Fin 1)) := by
  obtain ⟨-, -, -, -, e0, e1, -⟩ := idx_facts t
  show V c main_v15 (((cfg0.win 2).blk t).view.emb (ix2 p (0 : Fin 1))) = _
  congr 1
  funext a; apply Fin.ext
  match a with
  | ⟨0, _⟩ => show win0_2.index t (0 : Fin 2) * 5000 + 1 * p.val = 5000 * t.val + p.val; omega
  | ⟨1, _⟩ => show win0_2.index t (1 : Fin 2) * 1 + 1 * 0 = 0; omega

/-- What point t writes back is block t of the scaled product of the whole arrays. -/
theorem flushed_eq (V : (c : Dev nD) → (b : Ref sig .tc) → Buf (Elt Ideal) ((c : Thread nD τ).loc b)) (c : Dev nD)
    (t : Fin cfg0.N) :
    (dat0 V c).flushed 3 t = ((cfg0.win 3).blk t).view.read (Elt Ideal)
      (Cert.Spec.reg0 (V c main_arg0) (V c main_arg2) (V c main_v15)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz,
    View.ld_unit_zero (S := S5000x1) hz]
  funext j
  obtain ⟨p, q, rfl⟩ : ∃ (p : Fin 5000) (q : Fin 128), j = ix2 p q := ⟨j 0, j 1, eq_ix2 j⟩
  have ht : t.val < 20 := t.isLt
  have hp : p.val < 5000 := p.isLt
  have h : 5000 * t.val + p.val < 100000 := by omega
  obtain ⟨-, -, -, -, -, -, e0, e1⟩ := idx_facts t
  have hemb : ((cfg0.win 3).blk t).view.emb (ix2 p q) = ix2 (⟨5000 * t.val + p.val, h⟩ : Fin 100000) q := by
    funext a; apply Fin.ext
    match a with
    | ⟨0, _⟩ => show win0_3.index t (0 : Fin 2) * 5000 + 1 * p.val = 5000 * t.val + p.val; omega
    | ⟨1, _⟩ => show win0_3.index t (1 : Fin 2) * 128 + 1 * q.val = q.val; omega
  show k0_pay1 (iblk0 V c 0 t) (iblk0 V c 1 t) (iblk0 V c 2 t) (ix2 p q)
    = Cert.Spec.reg0 (V c main_arg0) (V c main_arg2) (V c main_v15) (((cfg0.win 3).blk t).view.emb (ix2 p q))
  rw [hemb, pay, blk1, blk2 V c t p h]
  show _ = Cert.Product.mm (V c main_arg0) (V c main_arg2) (ix2 (⟨5000 * t.val + p.val, h⟩ : Fin 100000) q)
    * V c main_v15 (ix2 (⟨5000 * t.val + p.val, h⟩ : Fin 100000) (0 : Fin 1))
  congr 1
  exact Cert.Product.mm_rows _ _ _ p ⟨5000 * t.val + p.val, h⟩ q (fun k => blk0 V c t p k h)

/-- An index is in point t's block iff each coordinate is in the block's range on its axis. -/
theorem mem_blk (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v16).slice (win0_3.rect t)).set ↔ _
  rw [View.set_slice_whole, Rect.mem_set_unit]
  exact Iff.rfl

/-- Row r is in the block of point r / 5000: the blocks cover the array. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  have hlt : (i 0).val / 5000 < cfg0.N := by rw [hN]; omega
  obtain ⟨-, -, -, -, -, -, e0, e1⟩ := idx_facts ⟨(i 0).val / 5000, hlt⟩
  refine ⟨⟨(i 0).val / 5000, hlt⟩, flush0_3 _, ?_⟩
  rw [mem_blk]
  intro a
  match a with
  | ⟨0, _⟩ =>
    show win0_3.index ⟨(i 0).val / 5000, hlt⟩ (0 : Fin 2) * 5000 ≤ (i 0).val
      ∧ (i 0).val < win0_3.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win0_3.index ⟨(i 0).val / 5000, hlt⟩ (1 : Fin 2) * 128 ≤ (i 1).val
      ∧ (i 1).val < win0_3.index ⟨(i 0).val / 5000, hlt⟩ (1 : Fin 2) * 128 + 128
    rw [e1]; omega

/-- The first region's output array: the product of the node features with the first weights, row n scaled by node n's weight. -/
theorem arr (V : (c : Dev nD) → (b : Ref sig .tc) → Buf (Elt Ideal) ((c : Thread nD τ).loc b)) (c : Dev nD) :
    (Gen.dat0 (F := Ideal) V c).arrAt 3 cfg0.N = Cert.Spec.reg0 (V c main_arg0) (V c main_arg2) (V c main_v15) :=
  (dat0 V c).arrAt_eq_of_cover 3 _ (fun t _ => flushed_eq V c t) cover

end Cert.KernelIdeal.Reg0
end
-- ==== Proof.Reg1.lean ====
/-
  The second region's output array.

  The region runs over 20 grid points; point t holds rows 5000 t .. 5000 t + 4999 of the [100000, 128] arrays and of
  the weight column (the bias and the [128, 128] weights are whole at every point). At a point the body forms the
  block's activation — row p of the aggregate scaled by the weight column at p, plus the bias, clamped at 0 —,
  multiplies it with the weights and scales row p of the product by the weight column at p again. The activation of
  a band of rows is the band of the activation, and a band of rows of a product is the product of the band, so what
  point t writes back is block t of ONE array; the 20 blocks tile the array, so the array ends holding it.
-/
import proofs.«151056_j63668595196286_2_alg».proof.Proof.Gen.KernelIdeal.Frame
import proofs.«151056_j63668595196286_2_alg».proof.Proof.Spec
import Idealize.ShloMosaic.Lib.Pipeline.Value
import Idealize.ShloMosaic.Lib.ValueLayout

noncomputable section

namespace Cert.KernelIdeal.Reg1

open Cert.KernelIdeal Cert.KernelIdeal.Gen Idealize.ShloMosaic Idealize.ShloMosaic.TcCoe Idealize.SL.Sem
open Idealize.ShloMosaic.ValueIdx
open Idealize.ShloMosaic.Pipeline (Dat)

/-- The column of weights broadcast along the rows. -/
theorem bcast_col (x2 : Vec Ideal S5000x1 .f32) (h : S5000x1.Broadcasts S5000x128) (p : Fin 5000) (q : Fin 128) :
    broadcastTo S5000x128 x2 h (ix2 p q) = x2 (ix2 p (0 : Fin 1)) := by
  refine broadcastTo_apply x2 _ (ix2 p q) (ix2 p (0 : Fin 1)) fun ax => ?_
  match ax with
  | ⟨0, _⟩ => rfl
  | ⟨1, _⟩ => rfl

/-- The bias, as one row, broadcast down the rows. -/
theorem bcast_row (x : Vec Ideal S128 .f32) (h1 : S128.ShapeCasts S1x128) (h2 : S1x128.Broadcasts S5000x128)
    (p : Fin 5000) (q : Fin 128) :
    broadcastTo S5000x128 (shapeCast S1x128 x h1) h2 (ix2 p q) = x (ix1 q) :=
  (broadcastTo_1b_ab_apply _ h2 p q).trans (shapeCast_a_1a_apply x h1 0 q)

/-- A block's activation: row p scaled by the block's weight column at p, plus the bias, clamped at 0. -/
def actB (x0 : Vec Ideal S5000x128 .f32) (x1 : Vec Ideal S5000x1 .f32) (x2 : Vec Ideal S128 .f32) : S5000x128.Idx → EReal :=
  fun j => max (x0 j * x1 (ix2 (j 0) (0 : Fin 1)) + x2 (ix1 (j 1))) 0

/-- The body's stored value at (p, q): the product of the block's activation with the loaded weights at (p, q), times
    the weight column at row p (rounding to the narrower format is the identity on the extended reals; the
    accumulator starts at zero). -/
theorem pay (x0 : Vec Ideal S5000x128 .f32) (x1 : Vec Ideal S5000x1 .f32) (x2 : Vec Ideal S128 .f32)
    (x3 : Vec Ideal S128x128 .f32) (x4 : Vec Ideal S5000x1 .f32) (p : Fin 5000) (q : Fin 128) :
    k1_pay1 x0 x1 x2 x3 x4 (ix2 p q) = Cert.Product.mm (actB x0 x1 x2) x3 (ix2 p q) * x4 (ix2 p (0 : Fin 1)) := by
  unfold k1_pay1
  simp only [shapeCast_self]
  rw [mulf_apply, bcast_col]
  congr 1
  refine (congrFun (Cert.Product.matmul_zero_eq_mm dot_S5000x128_S128x128_S5000x128_1_0_0_1_n_n rfl rfl rfl rfl rfl rfl none _ _) (ix2 p q)).trans ?_
  refine Cert.Product.mm_rows _ _ _ p p q (fun k => ?_)
  rw [truncf_apply, maximumf_apply, addf_apply, mulf_apply, broadcast_apply, bcast_col, bcast_row]
  show max _ (Ideal.ofBits .f32 0x00000000#32) = _
  rw [Ideal.ofBits_zero_f32]
  rfl

/-- The zero offsets, however spelt. -/
theorem hz : (![0, 0] : Fin 2 → Nat) = fun _ => 0 := funext fun a => by fin_cases a <;> rfl
theorem hz1 : (![0] : Fin 1 → Nat) = fun _ => 0 := funext fun a => by fin_cases a <;> rfl

/-- The block index of each window at grid point t: the row-blocked windows are at block (t, 0), the whole ones at 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The aggregate's block at point t, row p, is row 5000 t + p of the array. -/
theorem blk0 (V : (c : Dev nD) → (b : Ref sig .tc) → Buf (Elt Ideal) ((c : Thread nD τ).loc b)) (c : Dev nD)
    (t : Fin cfg1.N) (p : Fin 5000) (k : Fin 128) (h : 5000 * t.val + p.val < 100000) :
    iblk1 V c 0 t (ix2 p k) = V c main_v26 (ix2 (⟨5000 * t.val + p.val, h⟩ : Fin 100000) k) := by
  obtain ⟨e0, e1, -⟩ := idx_facts t
  show V c main_v26 (((cfg1.win 0).blk t).view.emb (ix2 p k)) = _
  congr 1
  funext a; apply Fin.ext
  match a with
  | ⟨0, _⟩ => show win1_0.index t (0 : Fin 2) * 5000 + 1 * p.val = 5000 * t.val + p.val; omega
  | ⟨1, _⟩ => show win1_0.index t (1 : Fin 2) * 128 + 1 * k.val = k.val; omega

/-- The weight column's block at point t, row p, is row 5000 t + p of the column. -/
theorem blk1 (V : (c : Dev nD) → (b : Ref sig .tc) → Buf (Elt Ideal) ((c : Thread nD τ).loc b)) (c : Dev nD)
    (t : Fin cfg1.N) (p : Fin 5000) (h : 5000 * t.val + p.val < 100000) :
    iblk1 V c 1 t (ix2 p (0 : Fin 1)) = V c main_v15 (ix2 (⟨5000 * t.val + p.val, h⟩ : Fin 100000) (0 : Fin 1)) := by
  obtain ⟨-, -, e0, e1, -⟩ := idx_facts t
  show V c main_v15 (((cfg1.win 1).blk t).view.emb (ix2 p (0 : Fin 1))) = _
  congr 1
  funext a; apply Fin.ext
  match a with
  | ⟨0, _⟩ => show win1_1.index t (0 : Fin 2) * 5000 + 1 * p.val = 5000 * t.val + p.val; omega
  | ⟨1, _⟩ => show win1_1.index t (1 : Fin 2) * 1 + 1 * 0 = 0; omega

/-- The bias's block is the whole array at every point. -/
theorem blk2 (V : (c : Dev nD) → (b : Ref sig .tc) → Buf (Elt Ideal) ((c : Thread nD τ).loc b)) (c : Dev nD)
    (t : Fin cfg1.N) : iblk1 V c 2 t = V c main_arg3 := by
  obtain ⟨-, -, -, -, e0, -⟩ := idx_facts t
  funext j
  show V c main_arg3 (((cfg1.win 2).blk t).view.emb j) = V c main_arg3 j
  congr 1
  funext a; apply Fin.ext
  match a with
  | ⟨0, _⟩ => show win1_2.index t (0 : Fin 1) * 128 + 1 * (j 0).val = (j 0).val; omega

/-- The weights' block is the whole array at every point. -/
theorem blk3 (V : (c : Dev nD) → (b : Ref sig .tc) → Buf (Elt Ideal) ((c : Thread nD τ).loc b)) (c : Dev nD)
    (t : Fin cfg1.N) : iblk1 V c 3 t = V c main_arg4 := by
  obtain ⟨-, -, -, -, -, e0, e1, -⟩ := idx_facts t
  funext j
  show V c main_arg4 (((cfg1.win 3).blk t).view.emb j) = V c main_arg4 j
  congr 1
  funext a; apply Fin.ext
  match a with
  | ⟨0, _⟩ => show win1_3.index t (0 : Fin 2) * 128 + 1 * (j 0).val = (j 0).val; omega
  | ⟨1, _⟩ => show win1_3.index t (1 : Fin 2) * 128 + 1 * (j 1).val = (j 1).val; omega

/-- A block's activation at row p is the arrays' activation at row i, when the block's row p is the arrays' row i. -/
theorem act_congr (x0 : Vec Ideal S5000x128 .f32) (x1 : Vec Ideal S5000x1 .f32) (b : Vec Ideal S128 .f32)
    (A : Cert.Spec.SNC.Idx → EReal) (D : Cert.Spec.SN1.Idx → EReal) (p : Fin 5000) (i : Fin 100000) (k : Fin 128)
    (h0 : x0 (ix2 p k) = A (ix2 i k)) (h1 : x1 (ix2 p (0 : Fin 1)) = D (ix2 i (0 : Fin 1))) :
    actB x0 x1 b (ix2 p k) = Cert.Spec.act A D b (ix2 i k) := by
  show max (x0 (ix2 p k) * x1 (ix2 p (0 : Fin 1)) + b (ix1 k)) 0 = max (A (ix2 i k) * D (ix2 i (0 : Fin 1)) + b (ix1 k)) 0
  rw [h0, h1]

/-- The block's activation at row p is the whole arrays' activation at row 5000 t + p. -/
theorem act_blk (V : (c : Dev nD) → (b : Ref sig .tc) → Buf (Elt Ideal) ((c : Thread nD τ).loc b)) (c : Dev nD)
    (t : Fin cfg1.N) (p : Fin 5000) (k : Fin 128) (h : 5000 * t.val + p.val < 100000) :
    actB (iblk1 V c 0 t) (iblk1 V c 1 t) (V c main_arg3) (ix2 p k)
      = Cert.Spec.act (V c main_v26) (V c main_v15) (V c main_arg3) (ix2 (⟨5000 * t.val + p.val, h⟩ : Fin 100000) k) :=
  act_congr _ _ _ _ _ p ⟨5000 * t.val + p.val, h⟩ k (blk0 V c t p k h) (blk1 V c t p h)

/-- What point t writes back is block t of the scaled product of the whole arrays' activation with the weights. -/
theorem flushed_eq (V : (c : Dev nD) → (b : Ref sig .tc) → Buf (Elt Ideal) ((c : Thread nD τ).loc b)) (c : Dev nD)
    (t : Fin cfg1.N) :
    (dat1 V c).flushed 4 t = ((cfg1.win 4).blk t).view.read (Elt Ideal)
      (Cert.Spec.reg1 (V c main_v26) (V c main_v15) (V c main_arg3) (V c main_arg4)) := by
  show (cfg1.win 4).cut (grid1.coords t) ((dat1 V c).after 4 t) = _
  rw [after1_4]
  unfold out1_4
  rw [View.canon_unit_zero hz]
  simp only [View.ld_unit_zero (S := S5000x128) hz, View.ld_unit_zero (S := S128x128) hz,
    View.ld_unit_zero (S := S5000x1) hz, View.ld_unit_zero (S := S128) hz1]
  funext j
  obtain ⟨p, q, rfl⟩ : ∃ (p : Fin 5000) (q : Fin 128), j = ix2 p q := ⟨j 0, j 1, eq_ix2 j⟩
  have ht : t.val < 20 := t.isLt
  have hp : p.val < 5000 := p.isLt
  have h : 5000 * t.val + p.val < 100000 := by omega
  obtain ⟨-, -, -, -, -, -, -, e0, e1⟩ := idx_facts t
  have hemb : ((cfg1.win 4).blk t).view.emb (ix2 p q) = ix2 (⟨5000 * t.val + p.val, h⟩ : Fin 100000) q := by
    funext a; apply Fin.ext
    match a with
    | ⟨0, _⟩ => show win1_4.index t (0 : Fin 2) * 5000 + 1 * p.val = 5000 * t.val + p.val; omega
    | ⟨1, _⟩ => show win1_4.index t (1 : Fin 2) * 128 + 1 * q.val = q.val; omega
  show k1_pay1 (iblk1 V c 0 t) (iblk1 V c 1 t) (iblk1 V c 2 t) (iblk1 V c 3 t) (iblk1 V c 1 t) (ix2 p q)
    = Cert.Spec.reg1 (V c main_v26) (V c main_v15) (V c main_arg3) (V c main_arg4) (((cfg1.win 4).blk t).view.emb (ix2 p q))
  rw [hemb, pay, blk2, blk3, blk1 V c t p h]
  show _ = Cert.Product.mm (Cert.Spec.act (V c main_v26) (V c main_v15) (V c main_arg3)) (V c main_arg4)
      (ix2 (⟨5000 * t.val + p.val, h⟩ : Fin 100000) q)
    * V c main_v15 (ix2 (⟨5000 * t.val + p.val, h⟩ : Fin 100000) (0 : Fin 1))
  refine congrArg (fun z => z * V c main_v15 (ix2 (⟨5000 * t.val + p.val, h⟩ : Fin 100000) (0 : Fin 1))) ?_
  exact Cert.Product.mm_rows _ _ _ p ⟨5000 * t.val + p.val, h⟩ q (fun k => act_blk V c t p k h)

/-- An index is in point t's block iff each coordinate is in the block's range on its axis. -/
theorem mem_blk (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v27).slice (win1_4.rect t)).set ↔ _
  rw [View.set_slice_whole, Rect.mem_set_unit]
  exact Iff.rfl

/-- Row r is in the block of point r / 5000: the blocks cover the array. -/
theorem cover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 20 := N_1
  have hlt : (i 0).val / 5000 < cfg1.N := by rw [hN]; omega
  obtain ⟨-, -, -, -, -, -, -, e0, e1⟩ := idx_facts ⟨(i 0).val / 5000, hlt⟩
  refine ⟨⟨(i 0).val / 5000, hlt⟩, flush1_4 _, ?_⟩
  rw [mem_blk]
  intro a
  match a with
  | ⟨0, _⟩ =>
    show win1_4.index ⟨(i 0).val / 5000, hlt⟩ (0 : Fin 2) * 5000 ≤ (i 0).val
      ∧ (i 0).val < win1_4.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win1_4.index ⟨(i 0).val / 5000, hlt⟩ (1 : Fin 2) * 128 ≤ (i 1).val
      ∧ (i 1).val < win1_4.index ⟨(i 0).val / 5000, hlt⟩ (1 : Fin 2) * 128 + 128
    rw [e1]; omega

/-- The second region's output array: the first layer's activation of the aggregate times the second weights, row n
    scaled by node n's weight. -/
theorem arr (V : (c : Dev nD) → (b : Ref sig .tc) → Buf (Elt Ideal) ((c : Thread nD τ).loc b)) (c : Dev nD) :
    (Gen.dat1 (F := Ideal) V c).arrAt 4 cfg1.N
      = Cert.Spec.reg1 (V c main_v26) (V c main_v15) (V c main_arg3) (V c main_arg4) :=
  (dat1 V c).arrAt_eq_of_cover 4 _ (fun t _ => flushed_eq V c t) cover

end Cert.KernelIdeal.Reg1
end
-- ==== Proof.Reg2.lean ====
/-
  The third region's output array.

  The region runs over 20 grid points; point t holds rows 5000 t .. 5000 t + 4999 of the [100000, 128] arrays and of
  the weight column (the two biases and the [128, 128] output weights are whole at every point). At a point the body
  forms the block's activation — row p of the aggregate scaled by the weight column at p, plus the bias, clamped
  at 0 —, multiplies it with the output weights and adds the output bias along the rows. The activation of a band
  of rows is the band of the activation, and a band of rows of a product is the product of the band, so what point t
  writes back is block t of ONE array; the 20 blocks tile the array, so the array ends holding it.
-/
import proofs.«151056_j63668595196286_2_alg».proof.Proof.Gen.KernelIdeal.Frame
import proofs.«151056_j63668595196286_2_alg».proof.Proof.Spec
import Idealize.ShloMosaic.Lib.Pipeline.Value
import Idealize.ShloMosaic.Lib.ValueLayout

noncomputable section

namespace Cert.KernelIdeal.Reg2

open Cert.KernelIdeal Cert.KernelIdeal.Gen Idealize.ShloMosaic Idealize.ShloMosaic.TcCoe Idealize.SL.Sem
open Idealize.ShloMosaic.ValueIdx
open Idealize.ShloMosaic.Pipeline (Dat)

/-- The column of weights broadcast along the rows. -/
theorem bcast_col (x2 : Vec Ideal S5000x1 .f32) (h : S5000x1.Broadcasts S5000x128) (p : Fin 5000) (q : Fin 128) :
    broadcastTo S5000x128 x2 h (ix2 p q) = x2 (ix2 p (0 : Fin 1)) := by
  refine broadcastTo_apply x2 _ (ix2 p q) (ix2 p (0 : Fin 1)) fun ax => ?_
  match ax with
  | ⟨0, _⟩ => rfl
  | ⟨1, _⟩ => rfl

/-- A bias, as one row, broadcast down the rows. -/
theorem bcast_row (x : Vec Ideal S128 .f32) (h1 : S128.ShapeCasts S1x128) (h2 : S1x128.Broadcasts S5000x128)
    (p : Fin 5000) (q : Fin 128) :
    broadcastTo S5000x128 (shapeCast S1x128 x h1) h2 (ix2 p q) = x (ix1 q) :=
  (broadcastTo_1b_ab_apply _ h2 p q).trans (shapeCast_a_1a_apply x h1 0 q)

/-- A block's activation: row p scaled by the block's weight column at p, plus the bias, clamped at 0. -/
def actB (x0 : Vec Ideal S5000x128 .f32) (x1 : Vec Ideal S5000x1 .f32) (x2 : Vec Ideal S128 .f32) : S5000x128.Idx → EReal :=
  fun j => max (x0 j * x1 (ix2 (j 0) (0 : Fin 1)) + x2 (ix1 (j 1))) 0

/-- The body's stored value at (p, q): the product of the block's activation with the loaded weights at (p, q), plus
    the output bias at q (rounding to the narrower format is the identity on the extended reals; the accumulator
    starts at zero). -/
theorem pay (x0 : Vec Ideal S5000x128 .f32) (x1 : Vec Ideal S5000x1 .f32) (x2 : Vec Ideal S128 .f32)
    (x3 : Vec Ideal S128x128 .f32) (x4 : Vec Ideal S128 .f32) (p : Fin 5000) (q : Fin 128) :
    k2_pay1 x0 x1 x2 x3 x4 (ix2 p q) = Cert.Product.mm (actB x0 x1 x2) x3 (ix2 p q) + x4 (ix1 q) := by
  unfold k2_pay1
  simp only [shapeCast_self]
  rw [addf_apply, bcast_row]
  refine congrArg (fun z => z + x4 (ix1 q)) ?_
  refine (congrFun (Cert.Product.matmul_zero_eq_mm dot_S5000x128_S128x128_S5000x128_1_0_0_1_n_n rfl rfl rfl rfl rfl rfl none _ _) (ix2 p q)).trans ?_
  refine Cert.Product.mm_rows _ _ _ p p q (fun k => ?_)
  rw [truncf_apply, maximumf_apply, addf_apply, mulf_apply, broadcast_apply, bcast_col, bcast_row]
  show max _ (Ideal.ofBits .f32 0x00000000#32) = _
  rw [Ideal.ofBits_zero_f32]
  rfl

/-- The zero offsets, however spelt. -/
theorem hz : (![0, 0] : Fin 2 → Nat) = fun _ => 0 := funext fun a => by fin_cases a <;> rfl
theorem hz1 : (![0] : Fin 1 → Nat) = fun _ => 0 := funext fun a => by fin_cases a <;> rfl

/-- The block index of each window at grid point t: the row-blocked windows are at block (t, 0), the whole ones at 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 1) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

/-- The aggregate's block at point t, row p, is row 5000 t + p of the array. -/
theorem blk0 (V : (c : Dev nD) → (b : Ref sig .tc) → Buf (Elt Ideal) ((c : Thread nD τ).loc b)) (c : Dev nD)
    (t : Fin cfg2.N) (p : Fin 5000) (k : Fin 128) (h : 5000 * t.val + p.val < 100000) :
    iblk2 V c 0 t (ix2 p k) = V c main_v37 (ix2 (⟨5000 * t.val + p.val, h⟩ : Fin 100000) k) := by
  obtain ⟨e0, e1, -⟩ := idx_facts t
  show V c main_v37 (((cfg2.win 0).blk t).view.emb (ix2 p k)) = _
  congr 1
  funext a; apply Fin.ext
  match a with
  | ⟨0, _⟩ => show win2_0.index t (0 : Fin 2) * 5000 + 1 * p.val = 5000 * t.val + p.val; omega
  | ⟨1, _⟩ => show win2_0.index t (1 : Fin 2) * 128 + 1 * k.val = k.val; omega

/-- The weight column's block at point t, row p, is row 5000 t + p of the column. -/
theorem blk1 (V : (c : Dev nD) → (b : Ref sig .tc) → Buf (Elt Ideal) ((c : Thread nD τ).loc b)) (c : Dev nD)
    (t : Fin cfg2.N) (p : Fin 5000) (h : 5000 * t.val + p.val < 100000) :
    iblk2 V c 1 t (ix2 p (0 : Fin 1)) = V c main_v15 (ix2 (⟨5000 * t.val + p.val, h⟩ : Fin 100000) (0 : Fin 1)) := by
  obtain ⟨-, -, e0, e1, -⟩ := idx_facts t
  show V c main_v15 (((cfg2.win 1).blk t).view.emb (ix2 p (0 : Fin 1))) = _
  congr 1
  funext a; apply Fin.ext
  match a with
  | ⟨0, _⟩ => show win2_1.index t (0 : Fin 2) * 5000 + 1 * p.val = 5000 * t.val + p.val; omega
  | ⟨1, _⟩ => show win2_1.index t (1 : Fin 2) * 1 + 1 * 0 = 0; omega

/-- The bias's block is the whole array at every point. -/
theorem blk2 (V : (c : Dev nD) → (b : Ref sig .tc) → Buf (Elt Ideal) ((c : Thread nD τ).loc b)) (c : Dev nD)
    (t : Fin cfg2.N) : iblk2 V c 2 t = V c main_arg5 := by
  obtain ⟨-, -, -, -, e0, -⟩ := idx_facts t
  funext j
  show V c main_arg5 (((cfg2.win 2).blk t).view.emb j) = V c main_arg5 j
  congr 1
  funext a; apply Fin.ext
  match a with
  | ⟨0, _⟩ => show win2_2.index t (0 : Fin 1) * 128 + 1 * (j 0).val = (j 0).val; omega

/-- The weights' block is the whole array at every point. -/
theorem blk3 (V : (c : Dev nD) → (b : Ref sig .tc) → Buf (Elt Ideal) ((c : Thread nD τ).loc b)) (c : Dev nD)
    (t : Fin cfg2.N) : iblk2 V c 3 t = V c main_v40 := by
  obtain ⟨-, -, -, -, -, e0, e1, -⟩ := idx_facts t
  funext j
  show V c main_v40 (((cfg2.win 3).blk t).view.emb j) = V c main_v40 j
  congr 1
  funext a; apply Fin.ext
  match a with
  | ⟨0, _⟩ => show win2_3.index t (0 : Fin 2) * 128 + 1 * (j 0).val = (j 0).val; omega
  | ⟨1, _⟩ => show win2_3.index t (1 : Fin 2) * 128 + 1 * (j 1).val = (j 1).val; omega

/-- The output bias's block is the whole array at every point. -/
theorem blk4 (V : (c : Dev nD) → (b : Ref sig .tc) → Buf (Elt Ideal) ((c : Thread nD τ).loc b)) (c : Dev nD)
    (t : Fin cfg2.N) : iblk2 V c 4 t = V c main_v43 := by
  obtain ⟨-, -, -, -, -, -, -, e0, -⟩ := idx_facts t
  funext j
  show V c main_v43 (((cfg2.win 4).blk t).view.emb j) = V c main_v43 j
  congr 1
  funext a; apply Fin.ext
  match a with
  | ⟨0, _⟩ => show win2_4.index t (0 : Fin 1) * 128 + 1 * (j 0).val = (j 0).val; omega

/-- A block's activation at row p is the arrays' activation at row i, when the block's row p is the arrays' row i. -/
theorem act_congr (x0 : Vec Ideal S5000x128 .f32) (x1 : Vec Ideal S5000x1 .f32) (b : Vec Ideal S128 .f32)
    (A : Cert.Spec.SNC.Idx → EReal) (D : Cert.Spec.SN1.Idx → EReal) (p : Fin 5000) (i : Fin 100000) (k : Fin 128)
    (h0 : x0 (ix2 p k) = A (ix2 i k)) (h1 : x1 (ix2 p (0 : Fin 1)) = D (ix2 i (0 : Fin 1))) :
    actB x0 x1 b (ix2 p k) = Cert.Spec.act A D b (ix2 i k) := by
  show max (x0 (ix2 p k) * x1 (ix2 p (0 : Fin 1)) + b (ix1 k)) 0 = max (A (ix2 i k) * D (ix2 i (0 : Fin 1)) + b (ix1 k)) 0
  rw [h0, h1]

/-- The block's activation at row p is the whole arrays' activation at row 5000 t + p. -/
theorem act_blk (V : (c : Dev nD) → (b : Ref sig .tc) → Buf (Elt Ideal) ((c : Thread nD τ).loc b)) (c : Dev nD)
    (t : Fin cfg2.N) (p : Fin 5000) (k : Fin 128) (h : 5000 * t.val + p.val < 100000) :
    actB (iblk2 V c 0 t) (iblk2 V c 1 t) (V c main_arg5) (ix2 p k)
      = Cert.Spec.act (V c main_v37) (V c main_v15) (V c main_arg5) (ix2 (⟨5000 * t.val + p.val, h⟩ : Fin 100000) k) :=
  act_congr _ _ _ _ _ p ⟨5000 * t.val + p.val, h⟩ k (blk0 V c t p k h) (blk1 V c t p h)

/-- What point t writes back is block t of the head of the whole arrays. -/
theorem flushed_eq (V : (c : Dev nD) → (b : Ref sig .tc) → Buf (Elt Ideal) ((c : Thread nD τ).loc b)) (c : Dev nD)
    (t : Fin cfg2.N) :
    (dat2 V c).flushed 5 t = ((cfg2.win 5).blk t).view.read (Elt Ideal)
      (Cert.Spec.reg2 (V c main_v37) (V c main_v15) (V c main_arg5) (V c main_v40) (V c main_v43)) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz,
    View.ld_unit_zero (S := S5000x1) hz, View.ld_unit_zero (S := S128) hz1]
  funext j
  obtain ⟨p, q, rfl⟩ : ∃ (p : Fin 5000) (q : Fin 128), j = ix2 p q := ⟨j 0, j 1, eq_ix2 j⟩
  have ht : t.val < 20 := t.isLt
  have hp : p.val < 5000 := p.isLt
  have h : 5000 * t.val + p.val < 100000 := by omega
  obtain ⟨-, -, -, -, -, -, -, -, e0, e1⟩ := idx_facts t
  have hemb : ((cfg2.win 5).blk t).view.emb (ix2 p q) = ix2 (⟨5000 * t.val + p.val, h⟩ : Fin 100000) q := by
    funext a; apply Fin.ext
    match a with
    | ⟨0, _⟩ => show win2_5.index t (0 : Fin 2) * 5000 + 1 * p.val = 5000 * t.val + p.val; omega
    | ⟨1, _⟩ => show win2_5.index t (1 : Fin 2) * 128 + 1 * q.val = q.val; omega
  show k2_pay1 (iblk2 V c 0 t) (iblk2 V c 1 t) (iblk2 V c 2 t) (iblk2 V c 3 t) (iblk2 V c 4 t) (ix2 p q)
    = Cert.Spec.reg2 (V c main_v37) (V c main_v15) (V c main_arg5) (V c main_v40) (V c main_v43)
        (((cfg2.win 5).blk t).view.emb (ix2 p q))
  rw [hemb, pay, blk2, blk3, blk4]
  show _ = Cert.Product.mm (Cert.Spec.act (V c main_v37) (V c main_v15) (V c main_arg5)) (V c main_v40)
      (ix2 (⟨5000 * t.val + p.val, h⟩ : Fin 100000) q) + V c main_v43 (ix1 q)
  refine congrArg (fun z => z + V c main_v43 (ix1 q)) ?_
  exact Cert.Product.mm_rows _ _ _ p ⟨5000 * t.val + p.val, h⟩ q (fun k => act_blk V c t p k h)

/-- An index is in point t's block iff each coordinate is in the block's range on its axis. -/
theorem mem_blk (t : Fin cfg2.N) (i : S100000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v44).slice (win2_5.rect t)).set ↔ _
  rw [View.set_slice_whole, Rect.mem_set_unit]
  exact Iff.rfl

/-- Row r is in the block of point r / 5000: the blocks cover the array. -/
theorem cover (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 20 := N_2
  have hlt : (i 0).val / 5000 < cfg2.N := by rw [hN]; omega
  obtain ⟨-, -, -, -, -, -, -, -, e0, e1⟩ := idx_facts ⟨(i 0).val / 5000, hlt⟩
  refine ⟨⟨(i 0).val / 5000, hlt⟩, flush2_5 _, ?_⟩
  rw [mem_blk]
  intro a
  match a with
  | ⟨0, _⟩ =>
    show win2_5.index ⟨(i 0).val / 5000, hlt⟩ (0 : Fin 2) * 5000 ≤ (i 0).val
      ∧ (i 0).val < win2_5.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win2_5.index ⟨(i 0).val / 5000, hlt⟩ (1 : Fin 2) * 128 ≤ (i 1).val
      ∧ (i 1).val < win2_5.index ⟨(i 0).val / 5000, hlt⟩ (1 : Fin 2) * 128 + 128
    rw [e1]; omega

/-- The third region's output array: the second layer's activation of the aggregate times the output weights, plus the output bias. -/
theorem arr (V : (c : Dev nD) → (b : Ref sig .tc) → Buf (Elt Ideal) ((c : Thread nD τ).loc b)) (c : Dev nD) :
    (Gen.dat2 (F := Ideal) V c).arrAt 5 cfg2.N
      = Cert.Spec.reg2 (V c main_v37) (V c main_v15) (V c main_arg5) (V c main_v40) (V c main_v43) :=
  (dat2 V c).arrAt_eq_of_cover 5 _ (fun t _ => flushed_eq V c t) cover

end Cert.KernelIdeal.Reg2
end
-- ==== Proof.KStages.lean ====
/-
  The host operations of the idealized kernel program, stretch by stretch, as functions of the buffers a stretch finds.

  @main's host side has six stretches: before the first kernel region the edge list is split into its two rows, each
  extended by the self-loops (`rVec`, `cVec`), the in-degrees are counted (`degV`), turned into the node weights
  (`dinvV`: the reciprocal square root where the degree is positive, 0 elsewhere) and laid out as a column (`d2V`);
  between two regions the rows of the region's result are gathered along the edges and added onto the receiving
  nodes (`aggV`, the source integers first wrapped: `rwV`); before the last region the output weights and bias are also
  padded to 128 columns (`padW`, `padB`); after it column 0 is cut out (`col0`).
  Each lemma says what ONE buffer holds after a stretch, from ANY contents `W` before it.
-/
import proofs.«151056_j63668595196286_2_alg».proof.Proof.Gen.KernelIdeal.Launch
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

/-- The edges' source integers: row 0 of the edge list, then the self-loops 0 … 99999. -/
def rVec (e : (⟨S2x1600000, .i32⟩ : BufTy).Contents (Elt F)) : (⟨S1700000, .i32⟩ : BufTy).Contents (Elt F) :=
  concatenate S1700000 0 [⟨S1600000, shapeCast _ (extractStridedSlice S1x1600000 ![0, 0] e slices_S2x1600000_S1x1600000_0_0) shapeCasts_S1x1600000_S1600000⟩, ⟨S100000, iotaInDim S100000 32 0⟩] concatenates_S1600000_S100000_S1700000_d0

/-- The edges' receiving integers: row 1 of the edge list, then the self-loops. -/
def cVec (e : (⟨S2x1600000, .i32⟩ : BufTy).Contents (Elt F)) : (⟨S1700000, .i32⟩ : BufTy).Contents (Elt F) :=
  concatenate S1700000 0 [⟨S1600000, shapeCast _ (extractStridedSlice S1x1600000 ![1, 0] e slices_S2x1600000_S1x1600000_1_0) shapeCasts_S1x1600000_S1600000⟩, ⟨S100000, iotaInDim S100000 32 0⟩] concatenates_S1600000_S100000_S1700000_d0

/-- The in-degrees: ones added onto the receiving nodes. -/
def degV (e : (⟨S2x1600000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32))
    (broadcastInDim S1700000x1 ![0] bcast_S1700000_S1700000x1_0 (cVec (F := F) e)) (broadcastInDim S1700000 ![] bcast_S_S1700000 (constant S_ .f32 0x3F800000#32))

/-- The node weights. -/
def dinvV (e : (⟨S2x1600000, .i32⟩ : BufTy).Contents (Elt F)) : (⟨S100000, .f32⟩ : BufTy).Contents (Elt F) :=
  select (cmpf (F := F) .ogt (degV (F := F) e) (broadcastInDim S100000 ![] bcast_S_S100000 (constant S_ .f32 0x00000000#32))) (Host.rsqrt (degV (F := F) e))
    (broadcastInDim S100000 ![] bcast_S_S100000 (constant S_ .f32 0x00000000#32))

/-- The node weights as a column. -/
def d2V (e : (⟨S2x1600000, .i32⟩ : BufTy).Contents (Elt F)) : (⟨S100000x1, .f32⟩ : BufTy).Contents (Elt F) :=
  broadcastInDim S100000x1 ![0] bcast_S100000_S100000x1_0 (dinvV (F := F) e)

/-- An integer vector with its negative entries moved up by the node count. -/
def rwV (r : (⟨S1700000, .i32⟩ : BufTy).Contents (Elt F)) : (⟨S1700000, .i32⟩ : BufTy).Contents (Elt F) :=
  select (cmpi .slt r (broadcastInDim S1700000 ![] bcast_S_S1700000 (constantI S_ 32 0#32))) (addi r (broadcastInDim S1700000 ![] bcast_S_S1700000 (constantI S_ 32 100000#32))) r

/-- The rows of `h` gathered along the edges and added onto the receiving nodes. -/
def aggV (cv rv : (⟨S1700000, .i32⟩ : BufTy).Contents (Elt F)) (h : (⟨S100000x128, .f32⟩ : BufTy).Contents (Elt F)) : (⟨S100000x128, .f32⟩ : BufTy).Contents (Elt F) :=
  Host.scatterAdd scatter_S100000x128_S1700000x1_S1700000x128_1_0_0_1 (broadcastInDim S100000x128 ![] bcast_S_S100000x128 (constant S_ .f32 0x00000000#32))
    (broadcastInDim S1700000x1 ![0] bcast_S1700000_S1700000x1_0 cv)
    (Host.gather gather_S100000x128_S1700000x1_S1700000x128_1_0_n_n_0_1_1128 h (broadcastInDim S1700000x1 ![0] bcast_S1700000_S1700000x1_0 (rwV (F := F) rv)))

/-- The output weights padded to 128 columns. -/
def padW (w : (⟨S128x1, .f32⟩ : BufTy).Contents (Elt F)) : (⟨S128x128, .f32⟩ : BufTy).Contents (Elt F) :=
  Host.scatter scatter_S128x128_S1_S128x1_01_n_1_0 (fun _ b => b) (broadcastInDim S128x128 ![] bcast_S_S128x128 (constant S_ .f32 0x00000000#32))
    (broadcastInDim S1 ![] bcast_S_S1 (constantI S_ 32 0#32)) w

/-- The output bias padded to 128 entries. -/
def padB (b : (⟨S1, .f32⟩ : BufTy).Contents (Elt F)) : (⟨S128, .f32⟩ : BufTy).Contents (Elt F) :=
  Host.scatter scatter_S128_S1_S1_0_n_0_0 (fun _ b => b) (broadcastInDim S128 ![] bcast_S_S128 (constant S_ .f32 0x00000000#32))
    (broadcastInDim S1 ![] bcast_S_S1 (constantI S_ 32 0#32)) b

/-- Column 0 as a vector. -/
def col0 (o : (⟨S100000x128, .f32⟩ : BufTy).Contents (Elt F)) : (⟨S100000, .f32⟩ : BufTy).Contents (Elt F) :=
  shapeCast _ (extractStridedSlice S100000x1 ![0, 0] o slices_S100000x128_S100000x1_0_0) shapeCasts_S100000x1_S100000

variable (W : Valuation τ sig (Elt F))

/-! ### Before the first region -/

/-- The three stretches before the first region, as one. -/
abbrev pre (W : Valuation τ sig (Elt F)) : Valuation τ sig (Elt F) :=
  StableHlo.after hostOps0_2 (StableHlo.after hostOps0_1 (StableHlo.after hostOps0 W))

theorem pre_v5 : pre W (Proc.devRef .tc main_v5) = rVec (F := F) (W (Proc.devRef .tc main_arg1)) := by
  dsimp only [pre, hostOps0, hostOps0_1, hostOps0_2]; after_results; rfl
theorem pre_v6 : pre W (Proc.devRef .tc main_v6) = cVec (F := F) (W (Proc.devRef .tc main_arg1)) := by
  dsimp only [pre, hostOps0, hostOps0_1, hostOps0_2]; after_results; rfl
theorem pre_v15 : pre W (Proc.devRef .tc main_v15) = d2V (F := F) (W (Proc.devRef .tc main_arg1)) := by
  dsimp only [pre, hostOps0, hostOps0_1, hostOps0_2]; after_results; rfl
theorem pre_arg0 : pre W (Proc.devRef .tc main_arg0) = W (Proc.devRef .tc main_arg0) := by
  dsimp only [pre, hostOps0, hostOps0_1, hostOps0_2]; after_results
theorem pre_arg2 : pre W (Proc.devRef .tc main_arg2) = W (Proc.devRef .tc main_arg2) := by
  dsimp only [pre, hostOps0, hostOps0_1, hostOps0_2]; after_results
theorem pre_arg3 : pre W (Proc.devRef .tc main_arg3) = W (Proc.devRef .tc main_arg3) := by
  dsimp only [pre, hostOps0, hostOps0_1, hostOps0_2]; after_results
theorem pre_arg4 : pre W (Proc.devRef .tc main_arg4) = W (Proc.devRef .tc main_arg4) := by
  dsimp only [pre, hostOps0, hostOps0_1, hostOps0_2]; after_results
theorem pre_arg5 : pre W (Proc.devRef .tc main_arg5) = W (Proc.devRef .tc main_arg5) := by
  dsimp only [pre, hostOps0, hostOps0_1, hostOps0_2]; after_results
theorem pre_arg6 : pre W (Proc.devRef .tc main_arg6) = W (Proc.devRef .tc main_arg6) := by
  dsimp only [pre, hostOps0, hostOps0_1, hostOps0_2]; after_results
theorem pre_arg7 : pre W (Proc.devRef .tc main_arg7) = W (Proc.devRef .tc main_arg7) := by
  dsimp only [pre, hostOps0, hostOps0_1, hostOps0_2]; after_results

/-! ### Between the first and the second region -/

theorem mid1_v26 : StableHlo.after hostOps1 W (Proc.devRef .tc main_v26)
    = aggV (F := F) (W (Proc.devRef .tc main_v6)) (W (Proc.devRef .tc main_v5)) (W (Proc.devRef .tc main_v16)) := by
  dsimp only [hostOps1]; after_results; rfl
theorem mid1_keep (r : Ref sig .tc) (hr : r ∈ ([main_v5, main_v6, main_v15, main_arg3, main_arg4, main_arg5, main_arg6, main_arg7] : List (Ref sig .tc))) :
    StableHlo.after hostOps1 W (Proc.devRef .tc r) = W (Proc.devRef .tc r) := by
  simp only [List.mem_cons, List.mem_nil_iff, or_false] at hr
  rcases hr with rfl | rfl | rfl | rfl | rfl | rfl | rfl | rfl <;> (dsimp only [hostOps1]; after_results)

/-! ### Between the second and the third region -/

theorem mid2_v37 : StableHlo.after hostOps2 W (Proc.devRef .tc main_v37)
    = aggV (F := F) (W (Proc.devRef .tc main_v6)) (W (Proc.devRef .tc main_v5)) (W (Proc.devRef .tc main_v27)) := by
  dsimp only [hostOps2]; after_results; rfl
theorem mid2_v40 : StableHlo.after hostOps2 W (Proc.devRef .tc main_v40) = padW (F := F) (W (Proc.devRef .tc main_arg6)) := by
  dsimp only [hostOps2]; after_results; rfl
theorem mid2_v43 : StableHlo.after hostOps2 W (Proc.devRef .tc main_v43) = padB (F := F) (W (Proc.devRef .tc main_arg7)) := by
  dsimp only [hostOps2]; after_results; rfl
theorem mid2_keep (r : Ref sig .tc) (hr : r ∈ ([main_v15, main_arg5] : List (Ref sig .tc))) :
    StableHlo.after hostOps2 W (Proc.devRef .tc r) = W (Proc.devRef .tc r) := by
  simp only [List.mem_cons, List.mem_nil_iff, or_false] at hr
  rcases hr with rfl | rfl <;> (dsimp only [hostOps2]; after_results)

/-! ### After the third region -/

theorem post_v46 : StableHlo.after hostOps3 W (Proc.devRef .tc main_v46) = col0 (F := F) (W (Proc.devRef .tc main_v44)) := by
  dsimp only [hostOps3]; after_results; rfl

end Cert.KernelIdeal.Hand

end
-- ==== Proof.KFold.lean ====
/-
  What the idealized kernel program leaves in its result buffer, as ONE term of the argument arrays.

  The contents at the last segment boundary (`W9`) are a fold through @main's segments from the launch memory.  Read at
  the buffers that matter, boundary by boundary: before the first region the edge vectors and the column of node weights
  are functions of the edge list alone; a region leaves in its output array the region's function of its input arrays
  (the three hypotheses `hR0 hR1 hR2`, proved region by region elsewhere) and every other buffer as it found it; a host
  stretch gathers the region's rows along the edges and adds them up.  Composed: `kTerm`.
-/
import proofs.«151056_j63668595196286_2_alg».proof.Proof.Gen.KernelIdeal.Frame
import proofs.«151056_j63668595196286_2_alg».proof.Proof.KStages
import proofs.«151056_j63668595196286_2_alg».proof.Proof.Spec

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo
open Idealize.ShloMosaic.Pipeline (Dat)

/-- The program's result as a term of its arguments: the three regions' functions with the gathers and sums between them. -/
def kTerm (x : (⟨S100000x128, .f32⟩ : BufTy).Contents (Elt Ideal)) (e : (⟨S2x1600000, .i32⟩ : BufTy).Contents (Elt Ideal))
    (w1 : (⟨S128x128, .f32⟩ : BufTy).Contents (Elt Ideal)) (b1 : (⟨S128, .f32⟩ : BufTy).Contents (Elt Ideal))
    (w2 : (⟨S128x128, .f32⟩ : BufTy).Contents (Elt Ideal)) (b2 : (⟨S128, .f32⟩ : BufTy).Contents (Elt Ideal))
    (wo : (⟨S128x1, .f32⟩ : BufTy).Contents (Elt Ideal)) (bo : (⟨S1, .f32⟩ : BufTy).Contents (Elt Ideal)) :
    (⟨S100000, .f32⟩ : BufTy).Contents (Elt Ideal) :=
  col0 (F := Ideal) (Cert.Spec.reg2
    (aggV (F := Ideal) (cVec (F := Ideal) e) (rVec (F := Ideal) e) (Cert.Spec.reg1
      (aggV (F := Ideal) (cVec (F := Ideal) e) (rVec (F := Ideal) e) (Cert.Spec.reg0 x w1 (d2V (F := Ideal) e)))
      (d2V (F := Ideal) e) b1 w2))
    (d2V (F := Ideal) e) b2 (padW (F := Ideal) wo) (padB (F := Ideal) bo))

variable (m : (ℓ : Loc nD τ sig) → Buf (Elt Ideal) ℓ) (ρ : Dev nD → PrngReg)

/-- The three regions' values, each for any entry contents. -/
structure RegionValues : Prop where
  r0 : ∀ (V : (c : Dev nD) → (b : Ref sig .tc) → Buf (Elt Ideal) ((c : Thread nD τ).loc b)) (c : Dev nD),
    (dat0 (F := Ideal) V c).arrAt 3 cfg0.N = Cert.Spec.reg0 (V c main_arg0) (V c main_arg2) (V c main_v15)
  r1 : ∀ (V : (c : Dev nD) → (b : Ref sig .tc) → Buf (Elt Ideal) ((c : Thread nD τ).loc b)) (c : Dev nD),
    (dat1 (F := Ideal) V c).arrAt 4 cfg1.N = Cert.Spec.reg1 (V c main_v26) (V c main_v15) (V c main_arg3) (V c main_arg4)
  r2 : ∀ (V : (c : Dev nD) → (b : Ref sig .tc) → Buf (Elt Ideal) ((c : Thread nD τ).loc b)) (c : Dev nD),
    (dat2 (F := Ideal) V c).arrAt 5 cfg2.N = Cert.Spec.reg2 (V c main_v37) (V c main_v15) (V c main_arg5) (V c main_v40) (V c main_v43)

/-! ### Region 0's entry -/

theorem W3_v5 (c : Dev nD) : W3 m ρ c (Proc.devRef .tc main_v5) = rVec (F := Ideal) (m ((c : Thread nD τ).loc main_arg1)) := pre_v5 (W0 m ρ c)
theorem W3_v6 (c : Dev nD) : W3 m ρ c (Proc.devRef .tc main_v6) = cVec (F := Ideal) (m ((c : Thread nD τ).loc main_arg1)) := pre_v6 (W0 m ρ c)
theorem W3_v15 (c : Dev nD) : W3 m ρ c (Proc.devRef .tc main_v15) = d2V (F := Ideal) (m ((c : Thread nD τ).loc main_arg1)) := pre_v15 (W0 m ρ c)
theorem W3_arg0 (c : Dev nD) : W3 m ρ c (Proc.devRef .tc main_arg0) = m ((c : Thread nD τ).loc main_arg0) := pre_arg0 (W0 m ρ c)
theorem W3_arg2 (c : Dev nD) : W3 m ρ c (Proc.devRef .tc main_arg2) = m ((c : Thread nD τ).loc main_arg2) := pre_arg2 (W0 m ρ c)
theorem W3_arg3 (c : Dev nD) : W3 m ρ c (Proc.devRef .tc main_arg3) = m ((c : Thread nD τ).loc main_arg3) := pre_arg3 (W0 m ρ c)
theorem W3_arg4 (c : Dev nD) : W3 m ρ c (Proc.devRef .tc main_arg4) = m ((c : Thread nD τ).loc main_arg4) := pre_arg4 (W0 m ρ c)
theorem W3_arg5 (c : Dev nD) : W3 m ρ c (Proc.devRef .tc main_arg5) = m ((c : Thread nD τ).loc main_arg5) := pre_arg5 (W0 m ρ c)
theorem W3_arg6 (c : Dev nD) : W3 m ρ c (Proc.devRef .tc main_arg6) = m ((c : Thread nD τ).loc main_arg6) := pre_arg6 (W0 m ρ c)
theorem W3_arg7 (c : Dev nD) : W3 m ρ c (Proc.devRef .tc main_arg7) = m ((c : Thread nD τ).loc main_arg7) := pre_arg7 (W0 m ρ c)

/-! ### Region 0's exit -/

theorem W4_v16 (h : RegionValues) (c : Dev nD) : W4 m ρ c (Proc.devRef .tc main_v16)
    = Cert.Spec.reg0 (m ((c : Thread nD τ).loc main_arg0)) (m ((c : Thread nD τ).loc main_arg2)) (d2V (F := Ideal) (m ((c : Thread nD τ).loc main_arg1))) := by
  refine (W4_arr m ρ c 3).trans ((h.r0 (V3 m ρ) c).trans ?_)
  show Cert.Spec.reg0 (W3 m ρ c (Proc.devRef .tc main_arg0)) (W3 m ρ c (Proc.devRef .tc main_arg2)) (W3 m ρ c (Proc.devRef .tc main_v15)) = _
  rw [W3_arg0, W3_arg2, W3_v15]
theorem W4_v15 (c : Dev nD) : W4 m ρ c (Proc.devRef .tc main_v15) = d2V (F := Ideal) (m ((c : Thread nD τ).loc main_arg1)) :=
  ((W4_arr m ρ c 2).trans (((dat0 (V3 m ρ) c).arrAt_in 2 rfl _).trans (A_eq0 (V3 m ρ) c 2))).trans (W3_v15 m ρ c)
theorem W4_v5 (c : Dev nD) : W4 m ρ c (Proc.devRef .tc main_v5) = rVec (F := Ideal) (m ((c : Thread nD τ).loc main_arg1)) :=
  (W4_of_ne m ρ c main_v5 (by decide)).trans (W3_v5 m ρ c)
theorem W4_v6 (c : Dev nD) : W4 m ρ c (Proc.devRef .tc main_v6) = cVec (F := Ideal) (m ((c : Thread nD τ).loc main_arg1)) :=
  (W4_of_ne m ρ c main_v6 (by decide)).trans (W3_v6 m ρ c)
theorem W4_arg3 (c : Dev nD) : W4 m ρ c (Proc.devRef .tc main_arg3) = m ((c : Thread nD τ).loc main_arg3) := (W4_of_ne m ρ c main_arg3 (by decide)).trans (W3_arg3 m ρ c)
theorem W4_arg4 (c : Dev nD) : W4 m ρ c (Proc.devRef .tc main_arg4) = m ((c : Thread nD τ).loc main_arg4) := (W4_of_ne m ρ c main_arg4 (by decide)).trans (W3_arg4 m ρ c)
theorem W4_arg5 (c : Dev nD) : W4 m ρ c (Proc.devRef .tc main_arg5) = m ((c : Thread nD τ).loc main_arg5) := (W4_of_ne m ρ c main_arg5 (by decide)).trans (W3_arg5 m ρ c)
theorem W4_arg6 (c : Dev nD) : W4 m ρ c (Proc.devRef .tc main_arg6) = m ((c : Thread nD τ).loc main_arg6) := (W4_of_ne m ρ c main_arg6 (by decide)).trans (W3_arg6 m ρ c)
theorem W4_arg7 (c : Dev nD) : W4 m ρ c (Proc.devRef .tc main_arg7) = m ((c : Thread nD τ).loc main_arg7) := (W4_of_ne m ρ c main_arg7 (by decide)).trans (W3_arg7 m ρ c)

/-! ### Region 1's entry -/

/-- The first layer's aggregate. -/
abbrev agg1 (c : Dev nD) : (⟨S100000x128, .f32⟩ : BufTy).Contents (Elt Ideal) :=
  aggV (F := Ideal) (cVec (F := Ideal) (m ((c : Thread nD τ).loc main_arg1))) (rVec (F := Ideal) (m ((c : Thread nD τ).loc main_arg1)))
    (Cert.Spec.reg0 (m ((c : Thread nD τ).loc main_arg0)) (m ((c : Thread nD τ).loc main_arg2)) (d2V (F := Ideal) (m ((c : Thread nD τ).loc main_arg1))))

theorem W5_v26 (h : RegionValues) (c : Dev nD) : W5 m ρ c (Proc.devRef .tc main_v26) = agg1 m c := by
  refine (mid1_v26 (W4 m ρ c)).trans ?_
  rw [W4_v6, W4_v5, W4_v16 m ρ h]
theorem W5_keep (c : Dev nD) (r : Ref sig .tc) (hr : r ∈ ([main_v5, main_v6, main_v15, main_arg3, main_arg4, main_arg5, main_arg6, main_arg7] : List (Ref sig .tc))) :
    W5 m ρ c (Proc.devRef .tc r) = W4 m ρ c (Proc.devRef .tc r) := mid1_keep (W4 m ρ c) r hr

/-! ### Region 1's exit -/

/-- The second layer's pre-scaled transform. -/
abbrev h2p (c : Dev nD) : (⟨S100000x128, .f32⟩ : BufTy).Contents (Elt Ideal) :=
  Cert.Spec.reg1 (agg1 m c) (d2V (F := Ideal) (m ((c : Thread nD τ).loc main_arg1))) (m ((c : Thread nD τ).loc main_arg3)) (m ((c : Thread nD τ).loc main_arg4))

theorem W6_v27 (h : RegionValues) (c : Dev nD) : W6 m ρ c (Proc.devRef .tc main_v27) = h2p m c := by
  refine (W6_arr m ρ c 4).trans ((h.r1 (V5 m ρ) c).trans ?_)
  show Cert.Spec.reg1 (W5 m ρ c (Proc.devRef .tc main_v26)) (W5 m ρ c (Proc.devRef .tc main_v15)) (W5 m ρ c (Proc.devRef .tc main_arg3)) (W5 m ρ c (Proc.devRef .tc main_arg4)) = _
  rw [W5_v26 m ρ h, W5_keep m ρ c main_v15 (by simp), W5_keep m ρ c main_arg3 (by simp), W5_keep m ρ c main_arg4 (by simp), W4_v15, W4_arg3, W4_arg4]
theorem W6_v15 (c : Dev nD) : W6 m ρ c (Proc.devRef .tc main_v15) = d2V (F := Ideal) (m ((c : Thread nD τ).loc main_arg1)) :=
  ((W6_arr m ρ c 1).trans (((dat1 (V5 m ρ) c).arrAt_in 1 rfl _).trans (A_eq1 (V5 m ρ) c 1))).trans ((W5_keep m ρ c main_v15 (by simp)).trans (W4_v15 m ρ c))
theorem W6_v5 (c : Dev nD) : W6 m ρ c (Proc.devRef .tc main_v5) = rVec (F := Ideal) (m ((c : Thread nD τ).loc main_arg1)) :=
  (W6_of_ne m ρ c main_v5 (by decide)).trans ((W5_keep m ρ c main_v5 (by simp)).trans (W4_v5 m ρ c))
theorem W6_v6 (c : Dev nD) : W6 m ρ c (Proc.devRef .tc main_v6) = cVec (F := Ideal) (m ((c : Thread nD τ).loc main_arg1)) :=
  (W6_of_ne m ρ c main_v6 (by decide)).trans ((W5_keep m ρ c main_v6 (by simp)).trans (W4_v6 m ρ c))
theorem W6_arg5 (c : Dev nD) : W6 m ρ c (Proc.devRef .tc main_arg5) = m ((c : Thread nD τ).loc main_arg5) :=
  (W6_of_ne m ρ c main_arg5 (by decide)).trans ((W5_keep m ρ c main_arg5 (by simp)).trans (W4_arg5 m ρ c))
theorem W6_arg6 (c : Dev nD) : W6 m ρ c (Proc.devRef .tc main_arg6) = m ((c : Thread nD τ).loc main_arg6) :=
  (W6_of_ne m ρ c main_arg6 (by decide)).trans ((W5_keep m ρ c main_arg6 (by simp)).trans (W4_arg6 m ρ c))
theorem W6_arg7 (c : Dev nD) : W6 m ρ c (Proc.devRef .tc main_arg7) = m ((c : Thread nD τ).loc main_arg7) :=
  (W6_of_ne m ρ c main_arg7 (by decide)).trans ((W5_keep m ρ c main_arg7 (by simp)).trans (W4_arg7 m ρ c))

/-! ### Region 2's entry and exit, and the result -/

theorem W7_v37 (h : RegionValues) (c : Dev nD) : W7 m ρ c (Proc.devRef .tc main_v37)
    = aggV (F := Ideal) (cVec (F := Ideal) (m ((c : Thread nD τ).loc main_arg1))) (rVec (F := Ideal) (m ((c : Thread nD τ).loc main_arg1))) (h2p m c) := by
  refine (mid2_v37 (W6 m ρ c)).trans ?_
  rw [W6_v6, W6_v5, W6_v27 m ρ h]
theorem W7_v40 (c : Dev nD) : W7 m ρ c (Proc.devRef .tc main_v40) = padW (F := Ideal) (m ((c : Thread nD τ).loc main_arg6)) := by
  refine (mid2_v40 (W6 m ρ c)).trans ?_
  rw [W6_arg6]
theorem W7_v43 (c : Dev nD) : W7 m ρ c (Proc.devRef .tc main_v43) = padB (F := Ideal) (m ((c : Thread nD τ).loc main_arg7)) := by
  refine (mid2_v43 (W6 m ρ c)).trans ?_
  rw [W6_arg7]
theorem W7_v15 (c : Dev nD) : W7 m ρ c (Proc.devRef .tc main_v15) = d2V (F := Ideal) (m ((c : Thread nD τ).loc main_arg1)) :=
  (mid2_keep (W6 m ρ c) main_v15 (by simp)).trans (W6_v15 m ρ c)
theorem W7_arg5 (c : Dev nD) : W7 m ρ c (Proc.devRef .tc main_arg5) = m ((c : Thread nD τ).loc main_arg5) :=
  (mid2_keep (W6 m ρ c) main_arg5 (by simp)).trans (W6_arg5 m ρ c)

/-- THE RESULT BUFFER at the last boundary is `kTerm` of the arguments. -/
theorem W9_v46 (h : RegionValues) (c : Dev nD) : W9 m ρ c (Proc.devRef .tc main_v46)
    = kTerm (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) := by
  refine (post_v46 (W8 m ρ c)).trans ?_
  unfold kTerm
  refine congrArg (col0 (F := Ideal)) ?_
  refine (W8_arr m ρ c 5).trans ((h.r2 (V7 m ρ) c).trans ?_)
  show Cert.Spec.reg2 (W7 m ρ c (Proc.devRef .tc main_v37)) (W7 m ρ c (Proc.devRef .tc main_v15)) (W7 m ρ c (Proc.devRef .tc main_arg5))
    (W7 m ρ c (Proc.devRef .tc main_v40)) (W7 m ρ c (Proc.devRef .tc main_v43)) = _
  rw [W7_v37 m ρ h, W7_v15, W7_arg5, W7_v40, W7_v43]

end Cert.KernelIdeal.Hand

end
-- ==== Proof.LibGather1.lean ====
/-
  A gather of single entries of a vector, read at an index.

  Let x be a vector of N entries and idx a column of E integers (an E × 1 array of words read as signed integers).
  The gather of single entries of x along idx — no offset axis, the one operand axis collapsed, slices of size 1 —
  is the vector of E entries whose entry e is x at the integer idx e, first clamped into [0, N − 1]: the entry
  rowOf idx e depends on the index column and on e only, not on x.
-/
import Idealize.ShloMosaic.PureOps.Ideal.Laws
import Idealize.ShloMosaic.Lib.ValueIdx
import proofs.«151056_j63668595196286_2_alg».proof.Proof.LibRowScatter

noncomputable section

namespace Cert.LibGather1

open Idealize.ShloMosaic Idealize.ShloMosaic.ValueIdx Cert.LibRowScatter

variable {N E w : Nat} {α : Type} (g1 : GatherDims ⟨1, ![N]⟩ ⟨2, ![E, 1]⟩ ⟨1, ![E]⟩)

/-- On the one axis of the vector the slice starts at the result entry's integer, read signed and clamped into
    [0, N − 1]. -/
theorem gather1_start (hod : g1.offsetDims = []) (hcd : g1.collapsedSliceDims = [0])
    (hob : g1.operandBatchingDims = []) (hsb : g1.startIndicesBatchingDims = []) (hsm : g1.startIndexMap = [0])
    (hiv : g1.indexVectorDim = 1) (hss : g1.sliceSizes = ![1]) (idx : IVec ⟨2, ![E, 1]⟩ w)
    (j : (⟨1, ![E]⟩ : Shape).Idx) :
    g1.start j idx 0 = min (idx (ix2 (j 0) (0 : Fin 1))).toInt.toNat (N - 1) := by
  obtain ⟨od, cd, ob, sb, sm, iv, ss, wf⟩ := g1
  dsimp only at hod hcd hob hsb hsm hiv hss
  subst hod hcd hob hsb hsm hiv hss
  unfold GatherDims.start
  rw [dif_pos (List.mem_singleton.mpr rfl)]
  refine congrArg₂ min (congrArg (fun v => (idx v).toInt.toNat) ?_) rfl
  funext b
  refine Fin.ext ?_
  match b with
  | ⟨0, _⟩ => rfl
  | ⟨1, _⟩ => rfl

/-- THE GATHER OF ENTRIES READ AT e: the vector at the integer of e clamped into [0, N − 1]. -/
theorem gather1_apply (hod : g1.offsetDims = []) (hcd : g1.collapsedSliceDims = [0])
    (hob : g1.operandBatchingDims = []) (hsb : g1.startIndicesBatchingDims = []) (hsm : g1.startIndexMap = [0])
    (hiv : g1.indexVectorDim = 1) (hss : g1.sliceSizes = ![1]) (hN : 0 < N)
    (x : (⟨1, ![N]⟩ : Shape).Idx → α) (idx : IVec ⟨2, ![E, 1]⟩ w) (e : Fin E) :
    Host.gather g1 x idx (ix1 e) = x (ix1 (rowOf hN idx e)) := by
  unfold Host.gather
  congr 1
  funext a
  obtain rfl : a = 0 := Subsingleton.elim _ _
  refine Fin.ext ?_
  show g1.start (ix1 e) idx 0 + g1.batchCoord (ix1 e) 0 + g1.offCoord (ix1 e) 0 = _
  rw [g1.batchCoord_eq_zero _ _ (by rw [hob]; exact List.not_mem_nil),
    g1.offCoord_eq_zero _ _ (fun h => ((g1.mem_sKept _).mp h).1 (by rw [hcd]; exact List.mem_singleton.mpr rfl)),
    gather1_start g1 hod hcd hob hsb hsm hiv hss]
  rfl

end Cert.LibGather1

end
-- ==== Proof.HostReads.lean ====
/-
  The host operations of the two printed programs, read as the functions of the specification.

  A scatter-add of rows into the zero array adds, onto each node, the update rows of the edges whose integer is the
  node's number; a gather of rows reads, on each edge, the row of its clamped integer. So the scatter-add of a gather
  is the sum, over the edges added onto a node, of the gathered rows; with each gathered row first multiplied by a
  per-edge weight (the product of two gathered node weights, broadcast along the row) it is the weighted sum.
-/
import proofs.«151056_j63668595196286_2_alg».proof.Proof.Spec
import Idealize.ShloMosaic.Lib.Pipeline.Value
import Idealize.ShloMosaic.Lib.ValueLayout
import Idealize.ShloMosaic.Lib.IdealHost
import proofs.«151056_j63668595196286_2_alg».proof.Proof.LibGather1

noncomputable section

namespace Cert.HostReads

open Cert.Spec Cert.LibRowScatter Cert.LibGather1 Idealize.ShloMosaic Idealize.ShloMosaic.ValueIdx

/-! ### The row scatter-add into zeros -/

/-- The scatter-add of the update rows into an array of zeros, read at (n, k): the sum over the edges added onto n. -/
theorem scatter_zero_apply (d : ScatterDims SNC SE1 SEC) (huw : d.updateWindowDims = [1])
    (hiw : d.insertedWindowDims = [0]) (hsd : d.scatterDimsToOperandDims = [0]) (hiv : d.indexVectorDim = 1)
    (z : SNC.Idx → EReal) (hz : ∀ j, z j = 0) (ci : IVec SE1 32) (upd : SEC.Idx → EReal)
    (n : Fin 100000) (k : Fin 128) :
    Host.scatterAdd (F := Ideal) (φ := .f32) d z ci upd (ix2 n k) = ∑ e ∈ into ci n, upd (ix2 e k) := by
  show Ideal.hostScatterAdd d z ci upd (ix2 n k) = _
  rw [hostScatterAdd_rows_apply d huw hiw hsd hiv z ci upd n k, hz, zero_add]
  rfl

/-- Gather the rows along the edges, add each onto its receiving node. -/
theorem scatter_gather_eq_aggK (d : ScatterDims SNC SE1 SEC) (huw : d.updateWindowDims = [1])
    (hiw : d.insertedWindowDims = [0]) (hsd : d.scatterDimsToOperandDims = [0]) (hiv : d.indexVectorDim = 1)
    (g : GatherDims SNC SE1 SEC) (hod : g.offsetDims = [1]) (hcd : g.collapsedSliceDims = [0])
    (hob : g.operandBatchingDims = []) (hsb : g.startIndicesBatchingDims = []) (hsm : g.startIndexMap = [0])
    (hgiv : g.indexVectorDim = 1) (hss : g.sliceSizes = ![1, 128])
    (z : SNC.Idx → EReal) (hz : ∀ j, z j = 0) (ci ri : IVec SE1 32) (h : SNC.Idx → EReal) :
    Host.scatterAdd (F := Ideal) (φ := .f32) d z ci (Host.gather g h ri) = aggK ci ri h := by
  funext j
  obtain ⟨n, k, rfl⟩ : ∃ n k, j = ix2 n k := ⟨j 0, j 1, eq_ix2 j⟩
  refine (scatter_zero_apply d huw hiw hsd hiv z hz ci _ n k).trans ?_
  show _ = ∑ e ∈ into ci n, h (ix2 (src ri e) k)
  refine Finset.sum_congr rfl fun e _ => ?_
  exact gather_rows_apply g hod hcd hob hsb hsm hgiv hss (by decide) h ri e k

/-! ### The gather of a vector's entries -/

/-- The gather of a node vector's entries along an edge column, read at e: the vector at the source node of e
    (the integer of e clamped into the node range). -/
theorem gather_entries_apply {α : Type} (g1 : GatherDims SN SE1 SE) (hod : g1.offsetDims = [])
    (hcd : g1.collapsedSliceDims = [0]) (hob : g1.operandBatchingDims = []) (hsb : g1.startIndicesBatchingDims = [])
    (hsm : g1.startIndexMap = [0]) (hiv : g1.indexVectorDim = 1) (hss : g1.sliceSizes = ![1])
    (dv : SN.Idx → α) (idx : IVec SE1 32) (e : Fin 1700000) :
    Host.gather g1 dv idx (ix1 e) = dv (ix1 (src idx e)) :=
  gather1_apply g1 hod hcd hob hsb hsm hiv hss (by decide) dv idx e

/-! ### The weighted messages -/

/-- The per-edge weight, broadcast along the row, read at (e, k): the vector's entry at e. -/
theorem edge_bcast_apply (hb1 : SE.BroadcastsInDim SE1 (![0] : Fin 1 → Fin SE1.rank))
    (hb2 : SE1.BroadcastsInDim SEC (![0, 1] : Fin 2 → Fin SEC.rank)) {α : Type} (v : SE.Idx → α)
    (e : Fin 1700000) (k : Fin 128) :
    broadcastInDim SEC ![0, 1] hb2 (broadcastInDim SE1 ![0] hb1 v) (ix2 e k) = v (ix1 e) := by
  refine (broadcastInDim_apply _ hb2 _ (ix2 e k) (ix2 e (0 : Fin 1)) fun a => ?_).trans ?_
  · match a with
    | ⟨0, _⟩ => rfl
    | ⟨1, _⟩ => rfl
  refine broadcastInDim_apply _ hb1 _ (ix2 e (0 : Fin 1)) (ix1 e) fun a => ?_
  match a with
  | ⟨0, _⟩ => rfl

/-- Gather the rows, weight each by the product of its two ends' weights, add each onto its receiving node. -/
theorem scatter_msg_eq_aggR (d : ScatterDims SNC SE1 SEC) (huw : d.updateWindowDims = [1])
    (hiw : d.insertedWindowDims = [0]) (hsd : d.scatterDimsToOperandDims = [0]) (hiv : d.indexVectorDim = 1)
    (g : GatherDims SNC SE1 SEC) (hod : g.offsetDims = [1]) (hcd : g.collapsedSliceDims = [0])
    (hob : g.operandBatchingDims = []) (hsb : g.startIndicesBatchingDims = []) (hsm : g.startIndexMap = [0])
    (hgiv : g.indexVectorDim = 1) (hss : g.sliceSizes = ![1, 128])
    (g1 : GatherDims SN SE1 SE) (hod1 : g1.offsetDims = []) (hcd1 : g1.collapsedSliceDims = [0])
    (hob1 : g1.operandBatchingDims = []) (hsb1 : g1.startIndicesBatchingDims = []) (hsm1 : g1.startIndexMap = [0])
    (hiv1 : g1.indexVectorDim = 1) (hss1 : g1.sliceSizes = ![1])
    (hb1 : SE.BroadcastsInDim SE1 (![0] : Fin 1 → Fin SE1.rank))
    (hb2 : SE1.BroadcastsInDim SEC (![0, 1] : Fin 2 → Fin SEC.rank))
    (z : SNC.Idx → EReal) (hz : ∀ j, z j = 0) (ci ri cwi : IVec SE1 32) (dv : SN.Idx → EReal) (h : SNC.Idx → EReal) :
    Host.scatterAdd (F := Ideal) (φ := .f32) d z ci
        (mulf (F := Ideal) (φ := .f32) (Host.gather g h ri)
          (broadcastInDim SEC ![0, 1] hb2 (broadcastInDim SE1 ![0] hb1
            (mulf (F := Ideal) (φ := .f32) (Host.gather g1 dv ri) (Host.gather g1 dv cwi)))))
      = aggR ci ri cwi dv h := by
  funext j
  obtain ⟨n, k, rfl⟩ : ∃ n k, j = ix2 n k := ⟨j 0, j 1, eq_ix2 j⟩
  refine (scatter_zero_apply d huw hiw hsd hiv z hz ci _ n k).trans ?_
  show _ = ∑ e ∈ into ci n, h (ix2 (src ri e) k) * (dv (ix1 (src ri e)) * dv (ix1 (src cwi e)))
  refine Finset.sum_congr rfl fun e _ => ?_
  refine (mulf_apply _ _ _).trans ?_
  refine congrArg₂ (· * ·) (gather_rows_apply g hod hcd hob hsb hsm hgiv hss (by decide) h ri e k) ?_
  refine (edge_bcast_apply hb1 hb2 _ e k).trans ?_
  refine (mulf_apply _ _ _).trans ?_
  exact congrArg₂ (· * ·) (gather_entries_apply g1 hod1 hcd1 hob1 hsb1 hsm1 hiv1 hss1 dv ri e)
    (gather_entries_apply g1 hod1 hcd1 hob1 hsb1 hsm1 hiv1 hss1 dv cwi e)

/-! ### Constants -/

/-- The zero word, broadcast to any shape, reads 0. -/
theorem zeros_apply {s : Shape} (hbz : (⟨0, ![]⟩ : Shape).BroadcastsInDim s (![] : Fin 0 → Fin s.rank)) (j : s.Idx) :
    broadcastInDim s ![] hbz (constant (F := Ideal) ⟨0, ![]⟩ .f32 0x00000000#32) j = 0 :=
  Ideal.ofBits_zero_f32

/-- The word of 1.0, broadcast to any shape, reads 1. -/
theorem ones_apply {s : Shape} (hbz : (⟨0, ![]⟩ : Shape).BroadcastsInDim s (![] : Fin 0 → Fin s.rank)) (j : s.Idx) :
    broadcastInDim s ![] hbz (constant (F := Ideal) ⟨0, ![]⟩ .f32 0x3F800000#32) j = 1 :=
  Ideal.ofBits_one_f32

/-- An integer constant, broadcast to any shape, reads the integer. -/
theorem constI_apply {s : Shape} {w : Nat} (hbz : (⟨0, ![]⟩ : Shape).BroadcastsInDim s (![] : Fin 0 → Fin s.rank))
    (v : BitVec w) (j : s.Idx) : broadcastInDim s ![] hbz (constantI ⟨0, ![]⟩ w v) j = v := rfl

/-! ### Columns, bias and clamp, the head -/

/-- A vector as a column, read at (n, 0). -/
theorem col_apply {α : Type} (hb : SN.BroadcastsInDim SN1 (![0] : Fin 1 → Fin SN1.rank)) (dv : SN.Idx → α)
    (n : Fin 100000) : broadcastInDim SN1 ![0] hb dv (ix2 n (0 : Fin 1)) = dv (ix1 n) := by
  refine broadcastInDim_apply _ hb _ _ (ix1 n) fun a => ?_
  match a with
  | ⟨0, _⟩ => rfl

/-- A row vector broadcast down the rows, read at (n, k): the vector at k. -/
theorem bias_bcast_apply {α : Type} (hbA : SC.BroadcastsInDim ⟨2, ![1, 128]⟩ (![1] : Fin 1 → Fin 2))
    (hbB : (⟨2, ![1, 128]⟩ : Shape).BroadcastsInDim SNC (![0, 1] : Fin 2 → Fin SNC.rank)) (b : SC.Idx → α)
    (n : Fin 100000) (k : Fin 128) :
    broadcastInDim SNC ![0, 1] hbB (broadcastInDim ⟨2, ![1, 128]⟩ ![1] hbA b) (ix2 n k) = b (ix1 k) := by
  refine (broadcastInDim_apply _ hbB _ (ix2 n k) (ix2 (0 : Fin 1) k) fun a => ?_).trans ?_
  · match a with
    | ⟨0, _⟩ => rfl
    | ⟨1, _⟩ => rfl
  refine broadcastInDim_apply _ hbA _ (ix2 (0 : Fin 1) k) (ix1 k) fun a => ?_
  match a with
  | ⟨0, _⟩ => rfl

/-- Add the bias along the rows, clamp at the zero splat. -/
theorem bias_relu_eq_actR (hbA : SC.BroadcastsInDim ⟨2, ![1, 128]⟩ (![1] : Fin 1 → Fin 2))
    (hbB : (⟨2, ![1, 128]⟩ : Shape).BroadcastsInDim SNC (![0, 1] : Fin 2 → Fin SNC.rank))
    (hbz : (⟨0, ![]⟩ : Shape).BroadcastsInDim SNC (![] : Fin 0 → Fin SNC.rank))
    (s : SNC.Idx → EReal) (b : SC.Idx → EReal) :
    maximumf (F := Ideal) (φ := .f32)
        (addf (F := Ideal) (φ := .f32) s
          (broadcastInDim SNC ![0, 1] hbB (broadcastInDim ⟨2, ![1, 128]⟩ ![1] hbA b)))
        (broadcastInDim SNC ![] hbz (constant (F := Ideal) ⟨0, ![]⟩ .f32 0x00000000#32))
      = actR s b := by
  funext j
  obtain ⟨n, k, rfl⟩ : ∃ n k, j = ix2 n k := ⟨j 0, j 1, eq_ix2 j⟩
  refine (maximumf_apply _ _ _).trans ?_
  show max _ _ = max (s (ix2 n k) + b (ix1 k)) 0
  refine congrArg₂ max ((addf_apply _ _ _).trans ?_) (zeros_apply hbz _)
  exact congrArg (s (ix2 n k) + ·) (bias_bcast_apply hbA hbB b n k)

/-- A column read as a vector: entry n is the column's (n, 0). -/
theorem col_cast_apply {α : Type} (hsc : SN1.ShapeCasts SN) (v : SN1.Idx → α) (n : Fin 100000) :
    shapeCast SN v hsc (ix1 n) = v (ix2 n (0 : Fin 1)) := by
  refine shapeCast_apply v hsc (ix1 n) (ix2 n (0 : Fin 1)) ?_
  rw [Shape.rowMajor_val_two, Shape.rowMajor_val_one]
  show n.val * 1 + 0 = n.val
  omega

/-- The head: the product with the one-column output weights plus the output bias, read as a vector. -/
theorem head_col (dd : DotDims SNC SC1 SN1) (hlc : dd.lhsContracting = [1]) (hrc : dd.rhsContracting = [0])
    (hln : dd.lhsNonContracting = [0]) (hrn : dd.rhsNonContracting = [1]) (hlb : dd.lhsBatch = [])
    (hrb : dd.rhsBatch = [])
    (hbA : S1.BroadcastsInDim ⟨2, ![1, 1]⟩ (![1] : Fin 1 → Fin 2))
    (hbB : (⟨2, ![1, 1]⟩ : Shape).BroadcastsInDim SN1 (![0, 1] : Fin 2 → Fin SN1.rank))
    (hsc : SN1.ShapeCasts SN) (a : SNC.Idx → EReal) (Wo : SC1.Idx → EReal) (bo : S1.Idx → EReal) :
    shapeCast SN
        (addf (F := Ideal) (φ := .f32) (Host.dotGeneral (F := Ideal) (φ₁ := .f32) (φ₂ := .f32) dd none a Wo)
          (broadcastInDim SN1 ![0, 1] hbB (broadcastInDim ⟨2, ![1, 1]⟩ ![1] hbA bo))) hsc
      = fun i => Cert.Product.mm a Wo (ix2 (i 0) (0 : Fin 1)) + bo (ix1 (0 : Fin 1)) := by
  funext i
  obtain ⟨n, rfl⟩ : ∃ n, i = ix1 n := ⟨i 0, eq_ix1 i⟩
  refine (col_cast_apply hsc _ n).trans ?_
  refine (addf_apply _ _ _).trans ?_
  refine congrArg₂ (· + ·) ?_ ?_
  · exact congrFun (Cert.Product.dotGeneral_eq_mm dd hlc hrc hln hrn hlb hrb none a Wo) _
  refine (broadcastInDim_apply _ hbB _ (ix2 n (0 : Fin 1)) (ix2 (0 : Fin 1) (0 : Fin 1)) fun c => ?_).trans ?_
  · match c with
    | ⟨0, _⟩ => rfl
    | ⟨1, _⟩ => rfl
  refine broadcastInDim_apply _ hbA _ (ix2 (0 : Fin 1) (0 : Fin 1)) (ix1 (0 : Fin 1)) fun c => ?_
  match c with
  | ⟨0, _⟩ => rfl

/-- Column 0 of an array, read as a vector. -/
theorem kernel_col {α : Type} (hsl : SNC.Slices (![0, 0] : Fin 2 → Nat) SN1) (hsc : SN1.ShapeCasts SN)
    (o : SNC.Idx → α) :
    shapeCast SN (extractStridedSlice SN1 ![0, 0] o hsl) hsc = fun i => o (ix2 (i 0) (0 : Fin 128)) := by
  funext i
  obtain ⟨n, rfl⟩ : ∃ n, i = ix1 n := ⟨i 0, eq_ix1 i⟩
  refine (col_cast_apply hsc _ n).trans ?_
  refine extractStridedSlice_apply _ o hsl (ix2 n (0 : Fin 1)) (ix2 n (0 : Fin 128)) fun c => ?_
  match c with
  | ⟨0, _⟩ => exact (Nat.zero_add n.val).symm
  | ⟨1, _⟩ => rfl

end Cert.HostReads

end
-- ==== Proof.KIsSpec.lean ====
/-
  The idealized kernel program's result as the pre-scaled computation `Cert.Spec.kOut`.

  Between two regions the rows gathered along the edges are added onto the receiving nodes: that stretch is the
  aggregate `aggK` along the receiving integers as a column (`ciK`) and the wrapped source integers as a column (`riK`);
  the last stretch reads column 0.
-/
import proofs.«151056_j63668595196286_2_alg».proof.Proof.KFold
import proofs.«151056_j63668595196286_2_alg».proof.Proof.HostReads

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx

/-- The receiving integers as a column. -/
def ciK (e : (⟨S2x1600000, .i32⟩ : BufTy).Contents (Elt Ideal)) : (⟨S1700000x1, .i32⟩ : BufTy).Contents (Elt Ideal) :=
  broadcastInDim S1700000x1 ![0] bcast_S1700000_S1700000x1_0 (cVec (F := Ideal) e)
/-- The wrapped source integers as a column. -/
def riK (e : (⟨S2x1600000, .i32⟩ : BufTy).Contents (Elt Ideal)) : (⟨S1700000x1, .i32⟩ : BufTy).Contents (Elt Ideal) :=
  broadcastInDim S1700000x1 ![0] bcast_S1700000_S1700000x1_0 (rwV (F := Ideal) (rVec (F := Ideal) e))

/-- A stretch between two regions is the aggregate along the edges. -/
theorem aggV_eq (e : (⟨S2x1600000, .i32⟩ : BufTy).Contents (Elt Ideal)) (h : (⟨S100000x128, .f32⟩ : BufTy).Contents (Elt Ideal)) :
    aggV (F := Ideal) (cVec (F := Ideal) e) (rVec (F := Ideal) e) h = Cert.Spec.aggK (ciK e) (riK e) h :=
  Cert.HostReads.scatter_gather_eq_aggK scatter_S100000x128_S1700000x1_S1700000x128_1_0_0_1 rfl rfl rfl rfl
    gather_S100000x128_S1700000x1_S1700000x128_1_0_n_n_0_1_1128 rfl rfl rfl rfl rfl rfl rfl _
    (fun j => Cert.HostReads.zeros_apply bcast_S_S100000x128 j) (ciK e) (riK e) h

/-- The program's result is `kOut` of the arguments, the padded output weights and bias, the column of node weights and the
    two integer columns. -/
theorem kTerm_eq_kOut (x : (⟨S100000x128, .f32⟩ : BufTy).Contents (Elt Ideal)) (e : (⟨S2x1600000, .i32⟩ : BufTy).Contents (Elt Ideal))
    (w1 : (⟨S128x128, .f32⟩ : BufTy).Contents (Elt Ideal)) (b1 : (⟨S128, .f32⟩ : BufTy).Contents (Elt Ideal))
    (w2 : (⟨S128x128, .f32⟩ : BufTy).Contents (Elt Ideal)) (b2 : (⟨S128, .f32⟩ : BufTy).Contents (Elt Ideal))
    (wo : (⟨S128x1, .f32⟩ : BufTy).Contents (Elt Ideal)) (bo : (⟨S1, .f32⟩ : BufTy).Contents (Elt Ideal)) :
    kTerm x e w1 b1 w2 b2 wo bo
      = Cert.Spec.kOut x w1 b1 w2 b2 (padW (F := Ideal) wo) (padB (F := Ideal) bo) (d2V (F := Ideal) e) (ciK e) (riK e) := by
  unfold kTerm Cert.Spec.kOut
  rewrite [aggV_eq, aggV_eq]
  exact Cert.HostReads.kernel_col slices_S100000x128_S100000x1_0_0 shapeCasts_S100000x1_S100000 _

end Cert.KernelIdeal.Hand

end
-- ==== Proof.LibScatterSet.lean ====
/-
  A scatter that writes its updates, read where exactly one update lands.

  A `stablehlo.scatter` whose body returns the update (`x.at[…].set(v)`) takes the update elements in row-major order and
  writes each at its result index, dropping those that fall outside the operand.  An element of the result on which
  exactly one update element lands holds that update element, whatever the operand held and whatever the other updates are:
  every other step of the fold leaves that element alone.  For any shapes, dimension numbers and element type.
-/
import Idealize.ShloMosaic.PureOps.Ideal

noncomputable section

namespace Cert.LibScatterSet

open Idealize.ShloMosaic

/-- A left fold of steps each of which leaves the value at `i` alone, except one that sets it to `v`. -/
theorem foldl_hit {ι κ β : Type} [DecidableEq ι] (g : (κ → β) → ι → (κ → β)) (i : κ) (n₀ : ι) (v : β)
    (hA : ∀ r, g r n₀ i = v) (hB : ∀ r n, n ≠ n₀ → g r n i = r i) :
    ∀ (L : List ι) (r : κ → β), (L.foldl g r) i = if n₀ ∈ L then v else r i
  | [], r => by simp
  | n :: L, r => by
    rw [List.foldl_cons, foldl_hit g i n₀ v hA hB L (g r n)]
    by_cases hn : n = n₀
    · subst hn
      simp [hA]
    · have hm : (n₀ ∈ n :: L) ↔ n₀ ∈ L := by
        rw [List.mem_cons]; exact ⟨fun h => h.resolve_left (fun e => hn e.symm), Or.inr⟩
      rw [if_congr hm rfl rfl, hB r n hn]

/-- An element exactly one update lands on holds that update. -/
theorem scatter_set_apply {s si u : Shape} {w : Nat} {α : Type} (d : ScatterDims s si u) (x : s.Idx → α) (idx : IVec si w)
    (upd : u.Idx → α) (i : s.Idx) (j₀ : u.Idx) (h₀ : d.resultIdx? j₀ idx = some i)
    (huniq : ∀ j, d.resultIdx? j idx = some i → j = j₀) :
    Host.scatter d (fun _ b => b) x idx upd i = upd j₀ := by
  unfold Host.scatter
  refine (foldl_hit _ i (u.rowMajor j₀) (upd j₀) ?_ ?_ _ x).trans (if_pos (List.mem_finRange _))
  · intro r
    simp only [Equiv.symm_apply_apply, h₀]
    exact if_pos trivial
  · intro r n hn
    have hj : u.rowMajor.symm n ≠ j₀ := fun e => hn (by rw [← e, Equiv.apply_symm_apply])
    generalize hq : d.resultIdx? (u.rowMajor.symm n) idx = q
    cases q with
    | none => rfl
    | some i'' =>
      have hne : i ≠ i'' := fun e => hj (huniq _ (by rw [hq, e]))
      exact if_neg hne

end Cert.LibScatterSet

end
-- ==== Proof.KPads.lean ====
/-
  The padded output weights and bias, read where they matter.

  A scatter whose body returns the update writes each update element at its result index, in row-major order of the
  updates; an element of the result that exactly one update lands on holds that update (`scatter_set_apply`).  The output
  weights, a [128,1] block, are written at column 0 of the zero [128,128] array (one scatter index, equal to 0): entry
  (k, 0) of the padded array is entry (k, 0) of the weights.  The same for the one-entry bias in the zero [128] vector.
-/
import proofs.«151056_j63668595196286_2_alg».proof.Proof.KStages
import proofs.«151056_j63668595196286_2_alg».proof.Proof.LibScatterSet
import Idealize.ShloMosaic.Lib.ValueIdx

set_option maxRecDepth 16384

noncomputable section

namespace Cert.KernelIdeal.Hand

open Cert.KernelIdeal Cert.KernelIdeal.Gen Idealize.ShloMosaic Idealize.ShloMosaic.ValueIdx Cert.LibScatterSet

/-! ### The output weights at column 0 -/

/-- The one scatter index, 0. -/
abbrev idx0 : (⟨S1, .i32⟩ : BufTy).Contents (Elt Ideal) := broadcastInDim S1 ![] bcast_S_S1 (constantI S_ 32 0#32)

theorem padW_start (j : S128x1.Idx) (a : Fin 2) : scatter_S128x128_S1_S128x1_01_n_1_0.start j idx0 a = 0 := by
  unfold ScatterDims.start
  split <;> rfl
theorem padW_window0 (j : S128x1.Idx) : scatter_S128x128_S1_S128x1_01_n_1_0.window j 0 = (j 0).val := by
  unfold ScatterDims.window
  exact (dif_pos (by decide)).trans rfl
theorem padW_window1 (j : S128x1.Idx) : scatter_S128x128_S1_S128x1_01_n_1_0.window j 1 = (j 1).val := by
  unfold ScatterDims.window
  exact (dif_pos (by decide)).trans rfl

/-- Update entry `j` of the weights lands on entry `i` of the padded array exactly when their coordinates agree. -/
theorem padW_result (j : S128x1.Idx) (i : S128x128.Idx) :
    scatter_S128x128_S1_S128x1_01_n_1_0.resultIdx? j idx0 = some i ↔ (j 0).val = (i 0).val ∧ (j 1).val = (i 1).val := by
  have hs0 := padW_start j 0
  have hs1 := padW_start j 1
  have hw0 := padW_window0 j
  have hw1 := padW_window1 j
  have hi0 := idx2_lt0 i
  have hi1 := idx2_lt1 i
  unfold ScatterDims.resultIdx?
  constructor
  · intro h
    split at h
    · have hi := Option.some.inj h
      have e0 := congrArg (fun f => (f 0).val) hi
      have e1 := congrArg (fun f => (f 1).val) hi
      simp only [hs0, hs1, hw0, hw1] at e0 e1
      omega
    · exact absurd h (by simp)
  · rintro ⟨h0, h1⟩
    have hr : ∀ a, 0 ≤ scatter_S128x128_S1_S128x1_01_n_1_0.start j idx0 a + scatter_S128x128_S1_S128x1_01_n_1_0.window j a ∧
        scatter_S128x128_S1_S128x1_01_n_1_0.start j idx0 a + scatter_S128x128_S1_S128x1_01_n_1_0.window j a < S128x128.size a := by
      intro a
      match a with
      | ⟨0, _⟩ =>
        show 0 ≤ scatter_S128x128_S1_S128x1_01_n_1_0.start j idx0 0 + scatter_S128x128_S1_S128x1_01_n_1_0.window j 0 ∧
          scatter_S128x128_S1_S128x1_01_n_1_0.start j idx0 0 + scatter_S128x128_S1_S128x1_01_n_1_0.window j 0 < ((128 : Nat) : Int)
        rw [hs0, hw0]; omega
      | ⟨1, _⟩ =>
        show 0 ≤ scatter_S128x128_S1_S128x1_01_n_1_0.start j idx0 1 + scatter_S128x128_S1_S128x1_01_n_1_0.window j 1 ∧
          scatter_S128x128_S1_S128x1_01_n_1_0.start j idx0 1 + scatter_S128x128_S1_S128x1_01_n_1_0.window j 1 < ((128 : Nat) : Int)
        rw [hs1, hw1]; omega
    rw [dif_pos hr]
    congr 1
    funext a
    refine Fin.ext ?_
    match a with
    | ⟨0, _⟩ =>
      show (scatter_S128x128_S1_S128x1_01_n_1_0.start j idx0 0 + scatter_S128x128_S1_S128x1_01_n_1_0.window j 0).toNat = (i 0).val
      rw [hs0, hw0]; omega
    | ⟨1, _⟩ =>
      show (scatter_S128x128_S1_S128x1_01_n_1_0.start j idx0 1 + scatter_S128x128_S1_S128x1_01_n_1_0.window j 1).toNat = (i 1).val
      rw [hs1, hw1]; omega

/-- Entry (k, 0) of the padded output weights is entry (k, 0) of the weights. -/
theorem padW_col0 (wo : (⟨S128x1, .f32⟩ : BufTy).Contents (Elt Ideal)) (k : Fin 128) :
    padW (F := Ideal) wo (ix2 k (0 : Fin 128)) = wo (ix2 k (0 : Fin 1)) := by
  unfold padW
  refine scatter_set_apply scatter_S128x128_S1_S128x1_01_n_1_0 _ idx0 wo (ix2 k (0 : Fin 128)) (ix2 k (0 : Fin 1))
    ((padW_result _ _).mpr ⟨rfl, rfl⟩) fun j hj => ?_
  obtain ⟨h0, h1⟩ := (padW_result j _).mp hj
  funext a
  refine Fin.ext ?_
  match a with
  | ⟨0, _⟩ => exact h0
  | ⟨1, _⟩ => exact h1

/-! ### The output bias at entry 0 -/

theorem padB_start (j : S1.Idx) (a : Fin 1) : scatter_S128_S1_S1_0_n_0_0.start j idx0 a = 0 := by
  unfold ScatterDims.start
  split <;> rfl
theorem padB_window0 (j : S1.Idx) : scatter_S128_S1_S1_0_n_0_0.window j 0 = (j 0).val := by
  unfold ScatterDims.window
  exact (dif_pos (by decide)).trans rfl

theorem padB_result (j : S1.Idx) (i : S128.Idx) :
    scatter_S128_S1_S1_0_n_0_0.resultIdx? j idx0 = some i ↔ (j 0).val = (i 0).val := by
  have hs0 := padB_start j 0
  have hw0 := padB_window0 j
  have hi0 : (i 0).val < 128 := (i 0).isLt
  unfold ScatterDims.resultIdx?
  constructor
  · intro h
    split at h
    · have hi := Option.some.inj h
      have e0 := congrArg (fun f => (f 0).val) hi
      simp only [hs0, hw0] at e0
      omega
    · exact absurd h (by simp)
  · intro h0
    have hr : ∀ a, 0 ≤ scatter_S128_S1_S1_0_n_0_0.start j idx0 a + scatter_S128_S1_S1_0_n_0_0.window j a ∧
        scatter_S128_S1_S1_0_n_0_0.start j idx0 a + scatter_S128_S1_S1_0_n_0_0.window j a < S128.size a := by
      intro a
      match a with
      | ⟨0, _⟩ =>
        show 0 ≤ scatter_S128_S1_S1_0_n_0_0.start j idx0 0 + scatter_S128_S1_S1_0_n_0_0.window j 0 ∧
          scatter_S128_S1_S1_0_n_0_0.start j idx0 0 + scatter_S128_S1_S1_0_n_0_0.window j 0 < ((128 : Nat) : Int)
        rw [hs0, hw0]; omega
    rw [dif_pos hr]
    congr 1
    funext a
    refine Fin.ext ?_
    match a with
    | ⟨0, _⟩ =>
      show (scatter_S128_S1_S1_0_n_0_0.start j idx0 0 + scatter_S128_S1_S1_0_n_0_0.window j 0).toNat = (i 0).val
      rw [hs0, hw0]; omega

/-- Entry 0 of the padded output bias is the bias. -/
theorem padB_0 (bo : (⟨S1, .f32⟩ : BufTy).Contents (Elt Ideal)) :
    padB (F := Ideal) bo (ix1 (0 : Fin 128)) = bo (ix1 (0 : Fin 1)) := by
  unfold padB
  refine scatter_set_apply scatter_S128_S1_S1_0_n_0_0 _ idx0 bo (ix1 (0 : Fin 128)) (ix1 (0 : Fin 1))
    ((padB_result _ _).mpr rfl) fun j hj => ?_
  have h0 := (padB_result j _).mp hj
  funext a
  refine Fin.ext ?_
  match a with
  | ⟨0, _⟩ => exact h0

end Cert.KernelIdeal.Hand

end
-- ==== Proof.RTerm.lean ====
/-
  The reference program's result as the edge-weighted computation `Cert.Spec.rOut`.

  The reference's run ends with its result at one long term of the arguments: two graph-convolution layers and the
  output product.  Named piece by piece — the edge vectors, the degrees and node weights, the wrapped integers as columns,
  one layer as a function of the transformed rows and the bias (`layerR`) — that term is `rTerm`; each layer is then
  the weighted aggregate with bias and clamp (`actR (aggR …)`), each product the matrix product, the last lines the
  output product's one column plus the bias.
-/
import proofs.«151056_j63668595196286_2_alg».proof.Proof.RefRun
import proofs.«151056_j63668595196286_2_alg».proof.Proof.Spec

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.ValueIdx

variable {F : FTy → Type} [FloatOps F]

/-- The edges' source integers: row 0 of the edge list, then the self-loops. -/
def rVec (e : (⟨S2x1600000, .i32⟩ : BufTy).Contents (Elt F)) : (⟨S1700000, .i32⟩ : BufTy).Contents (Elt F) :=
  concatenate S1700000 0 [⟨S1600000, shapeCast _ (extractStridedSlice S1x1600000 ![0, 0] e slices_S2x1600000_S1x1600000_0_0) shapeCasts_S1x1600000_S1600000⟩, ⟨S100000, iotaInDim S100000 32 0⟩] concatenates_S1600000_S100000_S1700000_d0

/-- The edges' receiving integers: row 1 of the edge list, then the self-loops. -/
def cVec (e : (⟨S2x1600000, .i32⟩ : BufTy).Contents (Elt F)) : (⟨S1700000, .i32⟩ : BufTy).Contents (Elt F) :=
  concatenate S1700000 0 [⟨S1600000, shapeCast _ (extractStridedSlice S1x1600000 ![1, 0] e slices_S2x1600000_S1x1600000_1_0) shapeCasts_S1x1600000_S1600000⟩, ⟨S100000, iotaInDim S100000 32 0⟩] concatenates_S1600000_S100000_S1700000_d0

/-- The in-degrees. -/
def degV (e : (⟨S2x1600000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32))
    (broadcastInDim S1700000x1 ![0] bcast_S1700000_S1700000x1_0 (cVec (F := F) e)) (broadcastInDim S1700000 ![] bcast_S_S1700000 (constant S_ .f32 0x3F800000#32))

/-- The node weights. -/
def dinvV (e : (⟨S2x1600000, .i32⟩ : BufTy).Contents (Elt F)) : (⟨S100000, .f32⟩ : BufTy).Contents (Elt F) :=
  select (cmpf (F := F) .ogt (degV (F := F) e) (broadcastInDim S100000 ![] bcast_S_S100000 (constant S_ .f32 0x00000000#32))) (Host.rsqrt (degV (F := F) e))
    (broadcastInDim S100000 ![] bcast_S_S100000 (constant S_ .f32 0x00000000#32))

/-- An integer vector with its negative entries moved up by the node count. -/
def rwV (r : (⟨S1700000, .i32⟩ : BufTy).Contents (Elt F)) : (⟨S1700000, .i32⟩ : BufTy).Contents (Elt F) :=
  select (cmpi .slt r (broadcastInDim S1700000 ![] bcast_S_S1700000 (constantI S_ 32 0#32))) (addi r (broadcastInDim S1700000 ![] bcast_S_S1700000 (constantI S_ 32 100000#32))) r

/-- The receiving integers as a column (what the sums are taken along). -/
def ci (e : (⟨S2x1600000, .i32⟩ : BufTy).Contents (Elt F)) : (⟨S1700000x1, .i32⟩ : BufTy).Contents (Elt F) := broadcastInDim S1700000x1 ![0] bcast_S1700000_S1700000x1_0 (cVec (F := F) e)
/-- The wrapped source integers as a column (what the rows are gathered along). -/
def ri (e : (⟨S2x1600000, .i32⟩ : BufTy).Contents (Elt F)) : (⟨S1700000x1, .i32⟩ : BufTy).Contents (Elt F) := broadcastInDim S1700000x1 ![0] bcast_S1700000_S1700000x1_0 (rwV (F := F) (rVec (F := F) e))
/-- The wrapped receiving integers as a column (what the receiving end's weight is gathered along). -/
def cwi (e : (⟨S2x1600000, .i32⟩ : BufTy).Contents (Elt F)) : (⟨S1700000x1, .i32⟩ : BufTy).Contents (Elt F) := broadcastInDim S1700000x1 ![0] bcast_S1700000_S1700000x1_0 (rwV (F := F) (cVec (F := F) e))

/-- One layer after its transform `h`: gather, weight, add up, bias, clamp. -/
def layerR (e : (⟨S2x1600000, .i32⟩ : BufTy).Contents (Elt F)) (h : (⟨S100000x128, .f32⟩ : BufTy).Contents (Elt F)) (b : (⟨S128, .f32⟩ : BufTy).Contents (Elt F)) :
    (⟨S100000x128, .f32⟩ : BufTy).Contents (Elt F) :=
  maximumf (addf (Host.scatterAdd scatter_S100000x128_S1700000x1_S1700000x128_1_0_0_1 (broadcastInDim S100000x128 ![] bcast_S_S100000x128 (constant S_ .f32 0x00000000#32)) (ci (F := F) e)
      (mulf (Host.gather gather_S100000x128_S1700000x1_S1700000x128_1_0_n_n_0_1_1128 h (ri (F := F) e))
        (broadcastInDim S1700000x128 ![0, 1] bcast_S1700000x1_S1700000x128_0_1 (broadcastInDim S1700000x1 ![0] bcast_S1700000_S1700000x1_0
          (mulf (Host.gather gather_S100000_S1700000x1_S1700000_n_0_n_n_0_1_1 (dinvV (F := F) e) (ri (F := F) e)) (Host.gather gather_S100000_S1700000x1_S1700000_n_0_n_n_0_1_1 (dinvV (F := F) e) (cwi (F := F) e)))))))
    (broadcastInDim S100000x128 ![0, 1] bcast_S1x128_S100000x128_0_1 (broadcastInDim S1x128 ![1] bcast_S128_S1x128_1 b)))
    (broadcastInDim S100000x128 ![] bcast_S_S100000x128 (constant S_ .f32 0x00000000#32))

/-- The reference's result, the pieces named. -/
def rTerm (x : (⟨S100000x128, .f32⟩ : BufTy).Contents (Elt F)) (e : (⟨S2x1600000, .i32⟩ : BufTy).Contents (Elt F))
    (w1 : (⟨S128x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F))
    (wo : (⟨S128x1, .f32⟩ : BufTy).Contents (Elt F)) (bo : (⟨S1, .f32⟩ : BufTy).Contents (Elt F)) :
    (⟨S100000, .f32⟩ : BufTy).Contents (Elt F) :=
  shapeCast _ (addf (Host.dotGeneral dot_S100000x128_S128x1_S100000x1_1_0_0_1_n_n none
      (layerR (F := F) e (Host.dotGeneral dot_S100000x128_S128x128_S100000x128_1_0_0_1_n_n none
        (layerR (F := F) e (Host.dotGeneral dot_S100000x128_S128x128_S100000x128_1_0_0_1_n_n none x w1) b1) w2) b2) wo)
    (broadcastInDim S100000x1 ![0, 1] bcast_S1x1_S100000x1_0_1 (broadcastInDim S1x1 ![1] bcast_S1_S1x1_1 bo))) shapeCasts_S100000x1_S100000

/-- The run's term is `rTerm` of the arguments. -/
theorem res_eq_rTerm (m : (ℓ : Loc nD τ sig) → Buf (Elt F) ℓ) (c : Dev nD) :
    Cert.ReferenceIdeal.ValueP.res_main_v96 (F := F) m c
      = rTerm (F := F) (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7)) := by
  unfold Cert.ReferenceIdeal.ValueP.res_main_v96 rTerm layerR ci ri cwi rwV dinvV degV cVec rVec
  rfl

end Cert.ReferenceIdeal.Hand

end
-- ==== Proof.RIsSpec.lean ====
/-
  The reference program's result is the edge-weighted computation of the specification.

  One layer of the reference gathers the transformed rows along the edges, multiplies each gathered row by the product
  of its two ends' weights, adds the rows onto their receiving nodes, adds the bias and clamps at 0: the weighted
  aggregate followed by bias and clamp. The whole result is two such layers, each after a matrix product, and the
  one-column output product plus the output bias.
-/
import proofs.«151056_j63668595196286_2_alg».proof.Proof.RTerm
import proofs.«151056_j63668595196286_2_alg».proof.Proof.HostReads
import proofs.«151056_j63668595196286_2_alg».proof.Proof.Spec

set_option maxRecDepth 16384

noncomputable section

namespace Cert.ReferenceIdeal.Hand

open Cert.ReferenceIdeal Cert.ReferenceIdeal.Gen Idealize.ShloMosaic Idealize.ShloMosaic.ValueIdx

/-- One layer of the reference is the weighted aggregate, then bias and clamp. -/
theorem layerR_eq (e : (⟨S2x1600000, .i32⟩ : BufTy).Contents (Elt Ideal))
    (h : (⟨S100000x128, .f32⟩ : BufTy).Contents (Elt Ideal)) (b : (⟨S128, .f32⟩ : BufTy).Contents (Elt Ideal)) :
    layerR (F := Ideal) e h b
      = Cert.Spec.actR (Cert.Spec.aggR (ci (F := Ideal) e) (ri (F := Ideal) e) (cwi (F := Ideal) e)
          (dinvV (F := Ideal) e) h) b := by
  unfold layerR
  rewrite [Cert.HostReads.scatter_msg_eq_aggR scatter_S100000x128_S1700000x1_S1700000x128_1_0_0_1 rfl rfl rfl rfl
    gather_S100000x128_S1700000x1_S1700000x128_1_0_n_n_0_1_1128 rfl rfl rfl rfl rfl rfl rfl
    gather_S100000_S1700000x1_S1700000_n_0_n_n_0_1_1 rfl rfl rfl rfl rfl rfl rfl
    bcast_S1700000_S1700000x1_0 bcast_S1700000x1_S1700000x128_0_1
    (broadcastInDim S100000x128 ![] bcast_S_S100000x128 (constant (F := Ideal) S_ .f32 0x00000000#32))
    (fun j => Cert.HostReads.zeros_apply bcast_S_S100000x128 j)
    (ci (F := Ideal) e) (ri (F := Ideal) e) (cwi (F := Ideal) e) (dinvV (F := Ideal) e) h]
  exact Cert.HostReads.bias_relu_eq_actR bcast_S128_S1x128_1 bcast_S1x128_S100000x128_0_1 bcast_S_S100000x128 _ b

/-- The reference's result is the edge-weighted computation at the reference's weights and integer columns. -/
theorem rTerm_eq_rOut (x : (⟨S100000x128, .f32⟩ : BufTy).Contents (Elt Ideal))
    (e : (⟨S2x1600000, .i32⟩ : BufTy).Contents (Elt Ideal))
    (w1 : (⟨S128x128, .f32⟩ : BufTy).Contents (Elt Ideal)) (b1 : (⟨S128, .f32⟩ : BufTy).Contents (Elt Ideal))
    (w2 : (⟨S128x128, .f32⟩ : BufTy).Contents (Elt Ideal)) (b2 : (⟨S128, .f32⟩ : BufTy).Contents (Elt Ideal))
    (wo : (⟨S128x1, .f32⟩ : BufTy).Contents (Elt Ideal)) (bo : (⟨S1, .f32⟩ : BufTy).Contents (Elt Ideal)) :
    rTerm (F := Ideal) x e w1 b1 w2 b2 wo bo
      = Cert.Spec.rOut x w1 b1 w2 b2 wo bo (dinvV (F := Ideal) e) (ci (F := Ideal) e) (ri (F := Ideal) e)
          (cwi (F := Ideal) e) := by
  unfold rTerm Cert.Spec.rOut
  rewrite [Cert.HostReads.head_col dot_S100000x128_S128x1_S100000x1_1_0_0_1_n_n rfl rfl rfl rfl rfl rfl
    bcast_S1_S1x1_1 bcast_S1x1_S100000x1_0_1 shapeCasts_S100000x1_S100000]
  rewrite [layerR_eq, layerR_eq]
  rewrite [Cert.Product.dotGeneral_eq_mm dot_S100000x128_S128x128_S100000x128_1_0_0_1_n_n rfl rfl rfl rfl rfl rfl,
    Cert.Product.dotGeneral_eq_mm dot_S100000x128_S128x128_S100000x128_1_0_0_1_n_n rfl rfl rfl rfl rfl rfl]
  rfl

end Cert.ReferenceIdeal.Hand

end
-- ==== Proof.Weights.lean ====
/-
  The node weights of the graph convolution and the receiving ends of its edges.

  (a) A node's weight is the reciprocal square root of its in-degree where the in-degree is positive, and 0 elsewhere.
  The in-degree is a count (ones scattered into zeros), so a natural number `k`: for `k > 0` the weight is the real
  number `(√k)⁻¹ ≥ 0`, for `k = 0` it is `0`.  Either way it is not negative and it is not `⊤`.

  (b) An edge that is added onto node `n` carries the integer `n ≥ 0`: the signed comparison with `0` is false, the
  wrap-around `c + 100000` is not taken, and clamping `n` into the node range leaves it as it is.
-/
import proofs.«151056_j63668595196286_2_alg».proof.Proof.Spec
import Idealize.ShloMosaic.Lib.Pipeline.Value
import Idealize.ShloMosaic.PureOps.Ideal.Laws

noncomputable section

namespace Cert.Weights

open Idealize.ShloMosaic Idealize.ShloMosaic.ValueIdx Cert.Spec Cert.LibRowScatter

/-! ### (a) the weights are finite and not negative -/

/-- At a natural number `k`: `(√k)⁻¹` where `k > 0`, `0` at `k = 0`; not negative, not `⊤`. -/
theorem rsqrtSel_nat (k : ℕ) :
    0 ≤ Scalar.select (Ideal.cmp .ogt ((k : ℕ) : EReal) 0) (Ideal.rsqrt ((k : ℕ) : EReal)) (0 : EReal)
    ∧ Scalar.select (Ideal.cmp .ogt ((k : ℕ) : EReal) 0) (Ideal.rsqrt ((k : ℕ) : EReal)) (0 : EReal) ≠ ⊤ := by
  by_cases hk : k = 0
  · subst hk
    have hc : Ideal.cmp .ogt (((0 : ℕ) : ℕ) : EReal) 0 = 0#1 := by
      simp [Ideal.cmp]
    rw [hc, select_zero]
    exact ⟨le_rfl, EReal.zero_ne_top⟩
  · have hposN : 0 < k := Nat.pos_of_ne_zero hk
    have hposR : (0 : ℝ) < (k : ℝ) := by exact_mod_cast hposN
    have hcast : ((k : ℕ) : EReal) = ((k : ℝ) : EReal) := EReal.coe_natCast.symm
    have hpos : (0 : EReal) < ((k : ℝ) : EReal) := EReal.coe_pos.mpr hposR
    have hc : Ideal.cmp .ogt ((k : ℕ) : EReal) 0 = 1#1 := by
      have hpos' : (0 : EReal) < ((k : ℕ) : EReal) := hcast ▸ hpos
      show BitVec.ofBool (decide ((0 : EReal) < ((k : ℕ) : EReal))) = 1#1
      rw [decide_eq_true hpos']
      rfl
    rw [hc, select_one, hcast, Ideal.rsqrt_coe, if_neg (not_lt.mpr hposR.le), if_neg hposR.ne']
    exact ⟨EReal.coe_nonneg.mpr (inv_nonneg.mpr (Real.sqrt_nonneg _)), EReal.coe_ne_top _⟩

/-- The node weights (reciprocal square root of the in-degree where it is positive, else 0) are not negative and
    not `⊤`, for any scatter dimension numbers into the node vector. -/
theorem dinv_nonneg_ne_top {φ : FTy} {si u : Shape} (d : ScatterDims SN si u) {w : Nat} (ci : IVec si w)
    (z : SN.Idx → EReal) (hz : ∀ i, z i = 0) (o : u.Idx → EReal) (ho : ∀ j, o j = 1)
    (z2 z3 : SN.Idx → EReal) (hz2 : ∀ i, z2 i = 0) (hz3 : ∀ i, z3 i = 0) (i : SN.Idx) :
    0 ≤ (select (cmpf (F := Ideal) (φ := φ) .ogt (Host.scatterAdd (F := Ideal) (φ := φ) d z ci o) z2)
          (Host.rsqrt (F := Ideal) (φ := φ) (Host.scatterAdd (F := Ideal) (φ := φ) d z ci o)) z3
          : SN.Idx → EReal) i
    ∧ (select (cmpf (F := Ideal) (φ := φ) .ogt (Host.scatterAdd (F := Ideal) (φ := φ) d z ci o) z2)
          (Host.rsqrt (F := Ideal) (φ := φ) (Host.scatterAdd (F := Ideal) (φ := φ) d z ci o)) z3
          : SN.Idx → EReal) i ≠ ⊤ := by
  have hz' : z = fun _ => (0 : EReal) := funext hz
  have ho' : o = fun _ => (1 : EReal) := funext ho
  obtain ⟨k, hk⟩ := hostScatterAdd_zero_one_nat d ci i
  have hdeg : Host.scatterAdd (F := Ideal) (φ := φ) d z ci o i = ((k : ℕ) : EReal) := by
    rw [hz', ho']
    exact hk
  have e : (select (cmpf (F := Ideal) (φ := φ) .ogt (Host.scatterAdd (F := Ideal) (φ := φ) d z ci o) z2)
          (Host.rsqrt (F := Ideal) (φ := φ) (Host.scatterAdd (F := Ideal) (φ := φ) d z ci o)) z3
          : SN.Idx → EReal) i
      = Scalar.select (Ideal.cmp .ogt ((k : ℕ) : EReal) 0) (Ideal.rsqrt ((k : ℕ) : EReal)) (0 : EReal) := by
    show Scalar.select (Ideal.cmp .ogt (Host.scatterAdd (F := Ideal) (φ := φ) d z ci o i) (z2 i))
        (Ideal.rsqrt (Host.scatterAdd (F := Ideal) (φ := φ) d z ci o i)) (z3 i) = _
    rw [hdeg, hz2 i, hz3 i]
  rw [e]
  exact rsqrtSel_nat k

/-! ### (b) the receiving end of an edge added onto node `n` -/

/-- A vector of edge integers made a column reads at `(e, 0)` as the vector at `e`. -/
theorem col_apply {α : Type} (hb : SE.BroadcastsInDim SE1 ![0]) (v : SE.Idx → α) (e : Fin 1700000) :
    broadcastInDim SE1 ![0] hb v (ix2 e (0 : Fin 1)) = v (ix1 e) :=
  broadcastInDim_apply ![0] hb v (ix2 e (0 : Fin 1)) (ix1 e) fun a => by
    match a with
    | ⟨0, _⟩ =>
      show e.val = if (1700000 : Nat) = 1 then 0 else e.val
      rw [if_neg (by decide)]

/-- An edge added onto node `n` reads node `n` as its receiving end: its integer is `n ≥ 0`, so it is not wrapped
    around, and it is already in the node range, so it is not clamped. -/
theorem src_wrap_of_into (c : IVec SE 32) (hb : SE.BroadcastsInDim SE1 ![0]) (zI nI : IVec SE 32)
    (hzI : ∀ e, zI e = 0#32) (hnI : ∀ e, nI e = 100000#32)
    (n : Fin 100000) (e : Fin 1700000) (he : e ∈ into (broadcastInDim SE1 ![0] hb c) n) :
    src (broadcastInDim SE1 ![0] hb (select (cmpi .slt c zI) (addi c nI) c)) e = n := by
  have hc : (c (ix1 e)).toInt = (n.val : Int) := by
    have h := (Finset.mem_filter.mp he).2
    rwa [col_apply hb c e] at h
  have hslt : (c (ix1 e)).slt (zI (ix1 e)) = false := by
    rw [hzI, BitVec.slt_eq_decide, BitVec.toInt_zero, hc]
    exact decide_eq_false (by omega)
  have hsel : (select (cmpi .slt c zI) (addi c nI) c) (ix1 e) = c (ix1 e) := by
    show Scalar.select (BitVec.ofBool ((c (ix1 e)).slt (zI (ix1 e)))) (addi c nI (ix1 e)) (c (ix1 e)) = _
    rw [hslt]
    exact select_zero _ _
  refine Fin.ext ?_
  show (rowOf (N := 100000) (by decide) _ e).val = n.val
  rw [rowOf_val, col_apply hb _ e, hsel, hc]
  have hn : n.val < 100000 := n.isLt
  omega

end Cert.Weights

end
-- ==== Proof.RWeights.lean ====
/-
  The reference program's node weights and receiving ends, at the printed terms.

  The node weights of the reference are the reciprocal square roots of the in-degrees (ones scattered into zeros along
  the receiving integers) where these are positive and 0 elsewhere: finite and not negative.  The wrapped receiving
  integer of an edge added onto node `n` is `n` itself, so the edge reads node `n` as its receiving end.
-/
import proofs.«151056_j63668595196286_2_alg».proof.Proof.RTerm
import proofs.«151056_j63668595196286_2_alg».proof.Proof.Weights
import proofs.«151056_j63668595196286_2_alg».proof.Proof.HostReads

set_option maxRecDepth 16384

noncomputable section

namespace Cert.ReferenceIdeal.Hand

open Cert.ReferenceIdeal Cert.ReferenceIdeal.Gen Idealize.ShloMosaic Idealize.ShloMosaic.ValueIdx

/-- The reference's node weights are not negative and not `⊤`. -/
theorem dinv_facts (e : (⟨S2x1600000, .i32⟩ : BufTy).Contents (Elt Ideal)) (n : Fin 100000) :
    0 ≤ dinvV (F := Ideal) e (ix1 n) ∧ dinvV (F := Ideal) e (ix1 n) ≠ ⊤ := by
  unfold dinvV degV
  exact Cert.Weights.dinv_nonneg_ne_top (φ := .f32) scatter_S100000_S1700000x1_S1700000_n_0_0_1 _
    _ (fun i => Cert.HostReads.zeros_apply _ i) _ (fun j => Cert.HostReads.ones_apply _ j)
    _ _ (fun i => Cert.HostReads.zeros_apply _ i) (fun i => Cert.HostReads.zeros_apply _ i) (ix1 n)

/-- An edge added onto node `n` reads node `n` through the wrapped receiving integers. -/
theorem cwi_src (e : (⟨S2x1600000, .i32⟩ : BufTy).Contents (Elt Ideal)) (n : Fin 100000) (e' : Fin 1700000)
    (he : e' ∈ Cert.Spec.into (ci (F := Ideal) e) n) : Cert.Spec.src (cwi (F := Ideal) e) e' = n := by
  unfold ci at he
  unfold cwi rwV
  exact Cert.Weights.src_wrap_of_into (cVec (F := Ideal) e) _ _ _
    (fun j => Cert.HostReads.constI_apply _ 0#32 j) (fun j => Cert.HostReads.constI_apply _ 100000#32 j) n e' he

end Cert.ReferenceIdeal.Hand

end
-- ==== Proof.LibERealSum.lean ====
/-
  A finite sum of extended reals times a finite factor that is not negative.

  Multiplication on the extended reals does not distribute over addition in general (`⊤ + ⊥` is `⊥`, and a
  product with `0` is `0`).  It does when the common factor `D` is finite and not negative: `D = 0` makes both
  sides `0`, and a positive real `D` keeps every infinity an infinity of the same sign, so
  `(y + z) * D = y * D + z * D` whatever `y` and `z` are.  By induction on the finite index set,
  `(∑ e ∈ S, a e) * D = ∑ e ∈ S, a e * D` whatever the summands `a e` are; likewise with `D` on the left.
-/
import Mathlib.Data.EReal.Operations
import Mathlib.Algebra.BigOperators.Group.Finset.Basic

namespace Cert.LibERealSum

/-- A finite sum of extended reals may be multiplied through, on the right, by a finite factor that is not negative,
    whatever the summands are. -/
theorem sum_mul_of_nonneg_of_ne_top {ι : Type*} (S : Finset ι) (a : ι → EReal) {D : EReal} (h0 : 0 ≤ D)
    (hT : D ≠ ⊤) : (∑ e ∈ S, a e) * D = ∑ e ∈ S, a e * D := by
  classical
  induction S using Finset.induction_on with
  | empty => simp
  | insert e S he ih =>
    rw [Finset.sum_insert he, Finset.sum_insert he, EReal.right_distrib_of_nonneg_of_ne_top h0 hT, ih]

/-- The same with the factor on the left. -/
theorem mul_sum_of_nonneg_of_ne_top {ι : Type*} (S : Finset ι) (a : ι → EReal) {D : EReal} (h0 : 0 ≤ D)
    (hT : D ≠ ⊤) : D * ∑ e ∈ S, a e = ∑ e ∈ S, D * a e := by
  rw [EReal.mul_comm, sum_mul_of_nonneg_of_ne_top S a h0 hT]
  exact Finset.sum_congr rfl fun e _ => EReal.mul_comm _ _

end Cert.LibERealSum
-- ==== Proof.Bridge.lean ====
/-
  The two ways of computing the two-layer graph convolution agree.

  For a finite extended real `D` with `0 ≤ D` and ANY extended reals `a e`, `(∑ e ∈ S, a e) * D = ∑ e ∈ S, a e * D`
  (induction on the finite set; the extended reals distribute over a sum when the common factor is finite and not
  negative, whatever the summands are).  So scaling the rows before the gather and the sum afterwards, each by its
  node's weight, is the same as weighting every gathered row by the product of its two ends' weights: that is the
  layer law.  The head reads column 0 of the padded output weights and entry 0 of the padded bias.
-/
import proofs.«151056_j63668595196286_2_alg».proof.Proof.Spec
import proofs.«151056_j63668595196286_2_alg».proof.Proof.LibERealSum

noncomputable section

namespace Cert.Spec

open Idealize.ShloMosaic Idealize.ShloMosaic.ValueIdx Cert.Product Cert.LibRowScatter Cert.LibERealSum

/-! ### The definitions read at an index -/

theorem aggK_apply (ci ri : IVec SE1 32) (h : SNC.Idx → EReal) (n : Fin 100000) (k : Fin 128) :
    aggK ci ri h (ix2 n k) = ∑ e ∈ into ci n, h (ix2 (src ri e) k) := rfl

theorem aggR_apply (ci ri cwi : IVec SE1 32) (dv : SN.Idx → EReal) (h : SNC.Idx → EReal) (n : Fin 100000)
    (k : Fin 128) :
    aggR ci ri cwi dv h (ix2 n k)
      = ∑ e ∈ into ci n, h (ix2 (src ri e) k) * (dv (ix1 (src ri e)) * dv (ix1 (src cwi e))) := rfl

theorem act_apply (a : SNC.Idx → EReal) (d : SN1.Idx → EReal) (b : SC.Idx → EReal) (n : Fin 100000) (k : Fin 128) :
    act a d b (ix2 n k) = max (a (ix2 n k) * d (ix2 n (0 : Fin 1)) + b (ix1 k)) 0 := rfl

theorem actR_apply (s : SNC.Idx → EReal) (b : SC.Idx → EReal) (n : Fin 100000) (k : Fin 128) :
    actR s b (ix2 n k) = max (s (ix2 n k) + b (ix1 k)) 0 := rfl

theorem reg0_eq (x : SNC.Idx → EReal) (w : SCC.Idx → EReal) (d : SN1.Idx → EReal) :
    reg0 x w d = fun j => mm x w j * d (ix2 (j 0) (0 : Fin 1)) := rfl

theorem reg1_eq (a : SNC.Idx → EReal) (d : SN1.Idx → EReal) (b : SC.Idx → EReal) (w : SCC.Idx → EReal) :
    reg1 a d b w = fun j => mm (act a d b) w j * d (ix2 (j 0) (0 : Fin 1)) := rfl

theorem reg2_apply (a : SNC.Idx → EReal) (d : SN1.Idx → EReal) (b : SC.Idx → EReal) (w : SCC.Idx → EReal)
    (bo : SC.Idx → EReal) (n : Fin 100000) (k : Fin 128) :
    reg2 a d b w bo (ix2 n k) = mm (act a d b) w (ix2 n k) + bo (ix1 k) := rfl

theorem kOut_apply (x : SNC.Idx → EReal) (W1 : SCC.Idx → EReal) (b1 : SC.Idx → EReal) (W2 : SCC.Idx → EReal)
    (b2 : SC.Idx → EReal) (WoP : SCC.Idx → EReal) (boP : SC.Idx → EReal) (d2 : SN1.Idx → EReal) (ci ri : IVec SE1 32)
    (n : Fin 100000) :
    kOut x W1 b1 W2 b2 WoP boP d2 ci ri (ix1 n)
      = reg2 (aggK ci ri (reg1 (aggK ci ri (reg0 x W1 d2)) d2 b1 W2)) d2 b2 WoP boP (ix2 n (0 : Fin 128)) := rfl

theorem rOut_apply (x : SNC.Idx → EReal) (W1 : SCC.Idx → EReal) (b1 : SC.Idx → EReal) (W2 : SCC.Idx → EReal)
    (b2 : SC.Idx → EReal) (Wo : SC1.Idx → EReal) (bo : S1.Idx → EReal) (dv : SN.Idx → EReal) (ci ri cwi : IVec SE1 32)
    (n : Fin 100000) :
    rOut x W1 b1 W2 b2 Wo bo dv ci ri cwi (ix1 n)
      = mm (actR (aggR ci ri cwi dv (mm (actR (aggR ci ri cwi dv (mm x W1)) b1) W2)) b2) Wo (ix2 n (0 : Fin 1))
        + bo (ix1 (0 : Fin 1)) := rfl

/-- Column 0 of a product with the padded output weights is the product with the output weights. -/
theorem mm_head (A : SNC.Idx → EReal) (WoP : SCC.Idx → EReal) (Wo : SC1.Idx → EReal)
    (hWo : ∀ k : Fin 128, WoP (ix2 k (0 : Fin 128)) = Wo (ix2 k (0 : Fin 1))) (n : Fin 100000) :
    mm A WoP (ix2 n (0 : Fin 128)) = mm A Wo (ix2 n (0 : Fin 1)) :=
  Finset.sum_congr rfl fun k _ => congrArg (fun t => A (ix2 n k) * t) (hWo k)

/-- THE LAYER LAW: rows scaled before the gather and the sum scaled after it, against every gathered row weighted by
    both ends' weights. -/
theorem layer (ci ri cwi : IVec SE1 32) (d2 : SN1.Idx → EReal) (dv : SN.Idx → EReal)
    (hd2 : ∀ n : Fin 100000, d2 (ix2 n (0 : Fin 1)) = dv (ix1 n))
    (hdv0 : ∀ n : Fin 100000, 0 ≤ dv (ix1 n)) (hdvT : ∀ n : Fin 100000, dv (ix1 n) ≠ ⊤)
    (hcw : ∀ (n : Fin 100000) (e : Fin 1700000), e ∈ into ci n → src cwi e = n)
    (h : SNC.Idx → EReal) (b : SC.Idx → EReal) :
    act (aggK ci ri (fun j => h j * d2 (ix2 (j 0) (0 : Fin 1)))) d2 b = actR (aggR ci ri cwi dv h) b := by
  funext j
  obtain ⟨n, k, rfl⟩ : ∃ (n : Fin 100000) (k : Fin 128), j = ix2 n k := ⟨j 0, j 1, eq_ix2 j⟩
  rewrite [act_apply, actR_apply, aggK_apply, aggR_apply]
  refine congrArg (fun t => max (t + b (ix1 k)) 0) ?_
  rewrite [hd2 n, sum_mul_of_nonneg_of_ne_top _ _ (hdv0 n) (hdvT n)]
  refine Finset.sum_congr rfl fun e he => ?_
  show h (ix2 (src ri e) k) * d2 (ix2 (src ri e) (0 : Fin 1)) * dv (ix1 n) = _
  rw [hd2, hcw n e he, mul_assoc]

/-- The two whole computations are equal as soon as the weights are finite and not negative, the receiving ends are
    read as the nodes the edges are added onto, and the padded head agrees with the head on column 0. -/
theorem kOut_eq_rOut (x : SNC.Idx → EReal) (W1 : SCC.Idx → EReal) (b1 : SC.Idx → EReal) (W2 : SCC.Idx → EReal)
    (b2 : SC.Idx → EReal) (WoP : SCC.Idx → EReal) (boP : SC.Idx → EReal) (Wo : SC1.Idx → EReal) (bo : S1.Idx → EReal)
    (d2 : SN1.Idx → EReal) (dv : SN.Idx → EReal) (ci ri cwi : IVec SE1 32)
    (hd2 : ∀ n : Fin 100000, d2 (ix2 n (0 : Fin 1)) = dv (ix1 n))
    (hdv0 : ∀ n : Fin 100000, 0 ≤ dv (ix1 n)) (hdvT : ∀ n : Fin 100000, dv (ix1 n) ≠ ⊤)
    (hcw : ∀ (n : Fin 100000) (e : Fin 1700000), e ∈ into ci n → src cwi e = n)
    (hWo : ∀ k : Fin 128, WoP (ix2 k (0 : Fin 128)) = Wo (ix2 k (0 : Fin 1)))
    (hbo : boP (ix1 (0 : Fin 128)) = bo (ix1 (0 : Fin 1))) :
    kOut x W1 b1 W2 b2 WoP boP d2 ci ri = rOut x W1 b1 W2 b2 Wo bo dv ci ri cwi := by
  have L := layer ci ri cwi d2 dv hd2 hdv0 hdvT hcw
  have h1 : act (aggK ci ri (reg0 x W1 d2)) d2 b1 = actR (aggR ci ri cwi dv (mm x W1)) b1 := by
    rw [reg0_eq]; exact L (mm x W1) b1
  have h2 : act (aggK ci ri (reg1 (aggK ci ri (reg0 x W1 d2)) d2 b1 W2)) d2 b2
      = actR (aggR ci ri cwi dv (mm (actR (aggR ci ri cwi dv (mm x W1)) b1) W2)) b2 := by
    rw [reg1_eq, h1]; exact L _ b2
  funext i
  obtain ⟨n, rfl⟩ : ∃ n : Fin 100000, i = ix1 n := ⟨i 0, eq_ix1 i⟩
  rw [kOut_apply, rOut_apply, reg2_apply, h2, hbo, mm_head _ WoP Wo hWo n]

end Cert.Spec

end
-- ==== Proof.Final.lean ====
/-
  The two programs' results are one function of the arguments.

  The idealized kernel program ends with its result at `kTerm` of the arguments, the reference at `rTerm`.  The first is
  the pre-scaled computation `kOut`, the second the edge-weighted computation `rOut`, along the same integer columns;
  they agree because the node weights are finite and not negative, an edge added onto a node reads that node as its
  receiving end, the kernel's column of weights holds the reference's weights, and the padded output weights and bias hold
  the output weights and bias at column 0.
-/
import proofs.«151056_j63668595196286_2_alg».proof.Proof.KIsSpec
import proofs.«151056_j63668595196286_2_alg».proof.Proof.KPads
import proofs.«151056_j63668595196286_2_alg».proof.Proof.RIsSpec
import proofs.«151056_j63668595196286_2_alg».proof.Proof.RWeights
import proofs.«151056_j63668595196286_2_alg».proof.Proof.Bridge

set_option maxRecDepth 16384

noncomputable section

namespace Cert.Proof.Hand

open Idealize.ShloMosaic Idealize.ShloMosaic.ValueIdx

/-- The kernel's column of node weights holds the reference's node weights. -/
theorem d2_eq (e : (⟨Cert.KernelIdeal.S2x1600000, .i32⟩ : BufTy).Contents (Elt Ideal)) (n : Fin 100000) :
    Cert.KernelIdeal.Hand.d2V (F := Ideal) e (ix2 n (0 : Fin 1)) = Cert.ReferenceIdeal.Hand.dinvV (F := Ideal) e (ix1 n) := by
  unfold Cert.KernelIdeal.Hand.d2V
  exact (Cert.HostReads.col_apply Cert.KernelIdeal.Gen.bcast_S100000_S100000x1_0 _ n).trans rfl

/-- The two results agree. -/
theorem terms_eq (x : (⟨Cert.KernelIdeal.S100000x128, .f32⟩ : BufTy).Contents (Elt Ideal)) (e : (⟨Cert.KernelIdeal.S2x1600000, .i32⟩ : BufTy).Contents (Elt Ideal))
    (w1 : (⟨Cert.KernelIdeal.S128x128, .f32⟩ : BufTy).Contents (Elt Ideal)) (b1 : (⟨Cert.KernelIdeal.S128, .f32⟩ : BufTy).Contents (Elt Ideal))
    (w2 : (⟨Cert.KernelIdeal.S128x128, .f32⟩ : BufTy).Contents (Elt Ideal)) (b2 : (⟨Cert.KernelIdeal.S128, .f32⟩ : BufTy).Contents (Elt Ideal))
    (wo : (⟨Cert.KernelIdeal.S128x1, .f32⟩ : BufTy).Contents (Elt Ideal)) (bo : (⟨Cert.KernelIdeal.S1, .f32⟩ : BufTy).Contents (Elt Ideal)) :
    Cert.KernelIdeal.Hand.kTerm x e w1 b1 w2 b2 wo bo = Cert.ReferenceIdeal.Hand.rTerm (F := Ideal) x e w1 b1 w2 b2 wo bo := by
  refine (Cert.KernelIdeal.Hand.kTerm_eq_kOut x e w1 b1 w2 b2 wo bo).trans ?_
  refine Eq.trans ?_ (Cert.ReferenceIdeal.Hand.rTerm_eq_rOut x e w1 b1 w2 b2 wo bo).symm
  have hci : Cert.KernelIdeal.Hand.ciK e = Cert.ReferenceIdeal.Hand.ci (F := Ideal) e := rfl
  have hri : Cert.KernelIdeal.Hand.riK e = Cert.ReferenceIdeal.Hand.ri (F := Ideal) e := rfl
  rewrite [hci, hri]
  exact Cert.Spec.kOut_eq_rOut x w1 b1 w2 b2 _ _ wo bo _ _ _ _ _ (d2_eq e)
    (fun n => (Cert.ReferenceIdeal.Hand.dinv_facts e n).1) (fun n => (Cert.ReferenceIdeal.Hand.dinv_facts e n).2)
    (fun n e' he => Cert.ReferenceIdeal.Hand.cwi_src e n e' he)
    (Cert.KernelIdeal.Hand.padW_col0 wo) (Cert.KernelIdeal.Hand.padB_0 bo)

end Cert.Proof.Hand

end
-- ==== Proof.lean ====
/-
  The certificate of a two-layer graph convolution with a linear head, computed by three matrix-product kernels with the
  node weights folded into their prologues and epilogues, against its plain reference.

  The three frames: the two kernel programs' by their generated frame proofs, the reference's by its run.  The kernel
  program's idealization rewrote nothing.  At the ideal values both programs end with the same function of the
  arguments: the kernel program's result buffer holds `kTerm` of the arguments (its run with the result named, the
  fold through its segments, the three regions' values), the reference's holds `rTerm` (its run), and the two are equal
  (`Cert.Proof.Hand.terms_eq`): scaling each gathered row by its source's weight before the sum and the sum by the
  receiver's weight afterwards is weighting each row by the product of the two weights, because a sum may be multiplied
  through by a finite factor that is not negative, whatever the summands are.
-/
import proofs.«151056_j63668595196286_2_alg».proof.Defs
import proofs.«151056_j63668595196286_2_alg».proof.Proof.Gen.Kernel
import proofs.«151056_j63668595196286_2_alg».proof.Proof.Gen.Kernel.Skeleton
import proofs.«151056_j63668595196286_2_alg».proof.Proof.Gen.Kernel.Launch
import proofs.«151056_j63668595196286_2_alg».proof.Proof.Gen.Kernel.Points
import proofs.«151056_j63668595196286_2_alg».proof.Proof.Gen.Kernel.Frame
import proofs.«151056_j63668595196286_2_alg».proof.Proof.Gen.KernelIdeal
import proofs.«151056_j63668595196286_2_alg».proof.Proof.Gen.KernelIdeal.Skeleton
import proofs.«151056_j63668595196286_2_alg».proof.Proof.Gen.KernelIdeal.Launch
import proofs.«151056_j63668595196286_2_alg».proof.Proof.Gen.KernelIdeal.Points
import proofs.«151056_j63668595196286_2_alg».proof.Proof.Gen.KernelIdeal.Frame
import proofs.«151056_j63668595196286_2_alg».proof.Proof.Gen.ReferenceIdeal
import proofs.«151056_j63668595196286_2_alg».proof.Proof.Gen.Pre_finite_inputs
import proofs.«151056_j63668595196286_2_alg».proof.Proof.KRun
import proofs.«151056_j63668595196286_2_alg».proof.Proof.Reg0
import proofs.«151056_j63668595196286_2_alg».proof.Proof.Reg1
import proofs.«151056_j63668595196286_2_alg».proof.Proof.Reg2
import proofs.«151056_j63668595196286_2_alg».proof.Proof.Final
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- The three regions' values. -/
theorem regionValues : Cert.KernelIdeal.Hand.RegionValues :=
  ⟨Cert.KernelIdeal.Reg0.arr, Cert.KernelIdeal.Reg1.arr, Cert.KernelIdeal.Reg2.arr⟩

/-- Both programs run, and end with equal results. -/
theorem algebraic : Cert.algebraic_KernelIdeal_ReferenceIdeal := by
  intro m ρ m' ρ' _ hagree
  refine ⟨fun c => Cert.KernelIdeal.Hand.kTerm
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Hand.W9_v46 m ρ regionValues c), (h c).2⟩)
      (Cert.KernelIdeal.Hand.run_named (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5, h6, h7⟩ := hagree c
    rw [Cert.ReferenceIdeal.Hand.res_eq_rTerm, h0, h1, h2, h3, h4, h5, h6, h7]
    exact (Cert.Proof.Hand.terms_eq _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
